-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  IdealRules.sign_bit.Statement Cert.KernelIdeal.S1024x784 .f32
  ∧ IdealRules.sign_bit.Statement Cert.KernelIdeal.S1024x1024 .f32
  ∧ IdealRules.sign_bit.Statement Cert.KernelIdeal.S1024x1024 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_v118 : IVec S_ 1) (main_v119 : FVec F S10 .f32) : IVec S_ 1 :=
  let main_cst_46 : FVec F S_ .f32 := constant S_ .f32 0x7F800000#32
  let main_v120 : FVec F S10 .f32 := broadcastInDim S10 ![] bcast_S_S10 main_cst_46
  let main_v121 : IVec S10 1 := cmpf .olt main_v119 main_v120
  let main_c_47 : IVec S_ 1 := constantI S_ 1 1#1
  let main_v122 : IVec S_ 1 := (fun x v => Host.reduce IntOp.andi x v reducesTo_S10_S_d0 h_S_) main_v121 main_c_47
  let main_v123 : IVec S_ 1 := andi main_v118 main_v122
  main_v123

def fn_part6 {F : FTy → Type} [FloatOps F] (main_arg21 : FVec F S10 .f32) (main_arg22 : FVec F S10 .f32) (main_arg23 : FVec F S10 .f32) (main_arg24 : FVec F S10 .f32) (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  let main_v104 : FVec F S10 .f32 := Host.absf main_arg21
  let main_cst_40 : FVec F S_ .f32 := constant S_ .f32 0x7F800000#32
  let main_v105 : FVec F S10 .f32 := broadcastInDim S10 ![] bcast_S_S10 main_cst_40
  let main_v106 : IVec S10 1 := cmpf .olt main_v104 main_v105
  let main_c_41 : IVec S_ 1 := constantI S_ 1 1#1
  let main_v107 : IVec S_ 1 := (fun x v => Host.reduce IntOp.andi x v reducesTo_S10_S_d0 h_S_) main_v106 main_c_41
  let main_v108 : IVec S_ 1 := andi main_v103 main_v107
  let main_v109 : FVec F S10 .f32 := Host.absf main_arg22
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  let main_v114 : FVec F S10 .f32 := Host.absf main_arg23
  let main_cst_44 : FVec F S_ .f32 := constant S_ .f32 0x7F800000#32
  let main_v115 : FVec F S10 .f32 := broadcastInDim S10 ![] bcast_S_S10 main_cst_44
  let main_v116 : IVec S10 1 := cmpf .olt main_v114 main_v115
  let main_c_45 : IVec S_ 1 := constantI S_ 1 1#1
  let main_v117 : IVec S_ 1 := (fun x v => Host.reduce IntOp.andi x v reducesTo_S10_S_d0 h_S_) main_v116 main_c_45
  let main_v118 : IVec S_ 1 := andi main_v113 main_v117
  let main_v119 : FVec F S10 .f32 := Host.absf main_arg24
  fn_part7 (F := F) main_v118 main_v119

def fn_part5 {F : FTy → Type} [FloatOps F] (main_arg18 : FVec F S1024 .f32) (main_arg19 : FVec F S10x1024 .f32) (main_arg20 : FVec F S10 .f32) (main_arg21 : FVec F S10 .f32) (main_arg22 : FVec F S10 .f32) (main_arg23 : FVec F S10 .f32) (main_arg24 : FVec F S10 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S10x1024 .f32 := Host.absf main_arg19
  let main_cst_36 : FVec F S_ .f32 := constant S_ .f32 0x7F800000#32
  let main_v95 : FVec F S10x1024 .f32 := broadcastInDim S10x1024 ![] bcast_S_S10x1024 main_cst_36
  let main_v96 : IVec S10x1024 1 := cmpf .olt main_v94 main_v95
  let main_c_37 : IVec S_ 1 := constantI S_ 1 1#1
  let main_v97 : IVec S_ 1 := (fun x v => Host.reduce IntOp.andi x v reducesTo_S10x1024_S_d0_1 h_S_) main_v96 main_c_37
  let main_v98 : IVec S_ 1 := andi main_v93 main_v97
  let main_v99 : FVec F S10 .f32 := Host.absf main_arg20
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S1024 .f32) (main_arg15 : FVec F S1024 .f32) (main_arg16 : FVec F S1024 .f32) (main_arg17 : FVec F S1024 .f32) (main_arg18 : FVec F S1024 .f32) (main_arg19 : FVec F S10x1024 .f32) (main_arg20 : FVec F S10 .f32) (main_arg21 : FVec F S10 .f32) (main_arg22 : FVec F S10 .f32) (main_arg23 : FVec F S10 .f32) (main_arg24 : FVec F S10 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S1024 .f32) (main_arg12 : FVec F S1024 .f32) (main_arg13 : FVec F S1024x1024 .f32) (main_arg14 : FVec F S1024 .f32) (main_arg15 : FVec F S1024 .f32) (main_arg16 : FVec F S1024 .f32) (main_arg17 : FVec F S1024 .f32) (main_arg18 : FVec F S1024 .f32) (main_arg19 : FVec F S10x1024 .f32) (main_arg20 : FVec F S10 .f32) (main_arg21 : FVec F S10 .f32) (main_arg22 : FVec F S10 .f32) (main_arg23 : FVec F S10 .f32) (main_arg24 : FVec F S10 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024x1024 .f32) (main_arg14 : FVec F S1024 .f32) (main_arg15 : FVec F S1024 .f32) (main_arg16 : FVec F S1024 .f32) (main_arg17 : FVec F S1024 .f32) (main_arg18 : FVec F S1024 .f32) (main_arg19 : FVec F S10x1024 .f32) (main_arg20 : FVec F S10 .f32) (main_arg21 : FVec F S10 .f32) (main_arg22 : FVec F S10 .f32) (main_arg23 : FVec F S10 .f32) (main_arg24 : FVec F S10 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S1024 .f32) (main_arg5 : FVec F S1024 .f32) (main_arg6 : FVec F S1024 .f32) (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024x1024 .f32) (main_arg14 : FVec F S1024 .f32) (main_arg15 : FVec F S1024 .f32) (main_arg16 : FVec F S1024 .f32) (main_arg17 : FVec F S1024 .f32) (main_arg18 : FVec F S1024 .f32) (main_arg19 : FVec F S10x1024 .f32) (main_arg20 : FVec F S10 .f32) (main_arg21 : FVec F S10 .f32) (main_arg22 : FVec F S10 .f32) (main_arg23 : FVec F S10 .f32) (main_arg24 : FVec F S10 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S32768x784 .f32) (main_arg1 : FVec F S1024x784 .f32) (main_arg2 : FVec F S1024 .f32) (main_arg3 : FVec F S1024 .f32) (main_arg4 : FVec F S1024 .f32) (main_arg5 : FVec F S1024 .f32) (main_arg6 : FVec F S1024 .f32) (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024x1024 .f32) (main_arg14 : FVec F S1024 .f32) (main_arg15 : FVec F S1024 .f32) (main_arg16 : FVec F S1024 .f32) (main_arg17 : FVec F S1024 .f32) (main_arg18 : FVec F S1024 .f32) (main_arg19 : FVec F S10x1024 .f32) (main_arg20 : FVec F S10 .f32) (main_arg21 : FVec F S10 .f32) (main_arg22 : FVec F S10 .f32) (main_arg23 : FVec F S10 .f32) (main_arg24 : FVec F S10 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S32768x784 : Shape := ⟨2, ![32768, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S_ : Shape := ⟨0, ![]⟩
abbrev S128x1024 : Shape := ⟨2, ![128, 1024]⟩
abbrev S128 : Shape := ⟨1, ![128]⟩
abbrev S32768x128 : Shape := ⟨2, ![32768, 128]⟩
abbrev S1024x128 : Shape := ⟨2, ![1024, 128]⟩
abbrev S1x1024 : Shape := ⟨2, ![1, 1024]⟩
abbrev S1x128 : Shape := ⟨2, ![1, 128]⟩
abbrev S32768x10 : Shape := ⟨2, ![32768, 10]⟩

abbrev nBuf : Space → Nat
  | .hbm => 53
  | .vmem => 28
  | .smem => 0
  | _ => 0

abbrev bufTy : (tb : Table) → Fin (tcTables nBuf tb) → BufTy
  | .hbm, ⟨0, _⟩ => ⟨S32768x784, .f32⟩
  | .hbm, ⟨1, _⟩ => ⟨S1024x784, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S10x1024, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S1024x784, .f32⟩
  | .hbm, ⟨26, _⟩ => ⟨S1024x784, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S10x1024, .f32⟩
  | .hbm, ⟨32, _⟩ => ⟨S10x1024, .bf16⟩
  | .hbm, ⟨33, _⟩ => ⟨S_, .i32⟩
  | .hbm, ⟨34, _⟩ => ⟨S_, .bf16⟩
  | .hbm, ⟨35, _⟩ => ⟨S128x1024, .bf16⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S32768x128, .f32⟩
  | .hbm, ⟨52, _⟩ => ⟨S32768x10, .f32⟩
  | .local _ .vmem, ⟨0, _⟩ => ⟨S1024x784, .f32⟩
  | .local _ .vmem, ⟨1, _⟩ => ⟨S1024x784, .f32⟩
  | .local _ .vmem, ⟨2, _⟩ => ⟨S1024x784, .bf16⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S1024x1024, .bf16⟩
  | .local _ .vmem, ⟨15, _⟩ => ⟨S1024, .f32⟩
  | .local _ .vmem, ⟨16, _⟩ => ⟨S1024, .f32⟩
  | .local _ .vmem, ⟨17, _⟩ => ⟨S1024, .f32⟩
  | .local _ .vmem, ⟨18, _⟩ => ⟨S1024, .f32⟩
  | .local _ .vmem, ⟨19, _⟩ => ⟨S1024, .f32⟩
  | .local _ .vmem, ⟨20, _⟩ => ⟨S128x1024, .bf16⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S1024x128, .f32⟩
  | .local _ .vmem, ⟨27, _⟩ => ⟨S1024x128, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_call0_v0 : Ref sig .tc := ⟨.hbm, 34, rfl⟩
abbrev main_v8 : Ref sig .tc := ⟨.hbm, 35, rfl⟩
abbrev main_c_0 : Ref sig .tc := ⟨.hbm, 36, rfl⟩
abbrev main_call1_v0 : Ref sig .tc := ⟨.hbm, 37, rfl⟩
abbrev main_v9 : Ref sig .tc := ⟨.hbm, 38, rfl⟩
abbrev main_c_1 : Ref sig .tc := ⟨.hbm, 39, rfl⟩
abbrev main_call2_v0 : Ref sig .tc := ⟨.hbm, 40, rfl⟩
abbrev main_v10 : Ref sig .tc := ⟨.hbm, 41, rfl⟩
abbrev main_c_2 : Ref sig .tc := ⟨.hbm, 42, rfl⟩
abbrev main_call3_v0 : Ref sig .tc := ⟨.hbm, 43, rfl⟩
abbrev main_v11 : Ref sig .tc := ⟨.hbm, 44, rfl⟩
abbrev main_c_3 : Ref sig .tc := ⟨.hbm, 45, rfl⟩
abbrev main_call4_v0 : Ref sig .tc := ⟨.hbm, 46, rfl⟩
abbrev main_v12 : Ref sig .tc := ⟨.hbm, 47, rfl⟩
abbrev main_c_4 : Ref sig .tc := ⟨.hbm, 48, rfl⟩
abbrev main_call5_v0 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1024x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  bitsLt_bf16_f32 : FTy.bits .bf16 < FTy.bits .f32
  pads_S10x1024_S128x1024_01180_000 : S10x1024.Pads (![0, 0] : Fin 2 → Nat) ![118, 0] ![0, 0] S128x1024
  h_S_ : 0 < S_.numel
  pads_S10_S128_01180 : S10.Pads (![0] : Fin 1 → Nat) ![118] ![0] S128
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S32768x128_S32768x10_0_0 : S32768x128.Slices ![0, 0] S32768x10
  dot_S1024x784_S1024x784_S1024x1024_1_1_0_0_n_n_wf : DotDims.WF S1024x784 S1024x784 S1024x1024 [1] [1] [0] [0] [] []
  dot_S1024x1024_S1024x1024_S1024x1024_1_1_0_0_n_n_wf : DotDims.WF S1024x1024 S1024x1024 S1024x1024 [1] [1] [0] [0] [] []
  dot_S1024x1024_S128x1024_S1024x128_1_1_0_0_n_n_wf : DotDims.WF S1024x1024 S128x1024 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S32768x784.size a
  hwx0_0 : ∀ i : grid0.Coords, EltTy.bits .f32 = 32 ∨ (Rect.block (s := S32768x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x784.size a ≤ S1024x784.size a
  hwx0_1 : ∀ i : grid0.Coords, EltTy.bits .bf16 = 32 ∨ (Rect.block (s := S1024x784) S1024x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S1024.size a
  hwx0_14 : ∀ i : grid0.Coords, EltTy.bits .f32 = 32 ∨ (Rect.block (s := S1024) S1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024.size a ≤ S1024.size a
  hwx0_15 : ∀ i : grid0.Coords, EltTy.bits .f32 = 32 ∨ (Rect.block (s := S1024) S1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024.size a ≤ S1024.size a
  hwx0_16 : ∀ i : grid0.Coords, EltTy.bits .f32 = 32 ∨ (Rect.block (s := S1024) S1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1024.size a ≤ S1024.size a
  hwx0_17 : ∀ i : grid0.Coords, EltTy.bits .f32 = 32 ∨ (Rect.block (s := S1024) S1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1024.size a ≤ S1024.size a
  hwx0_18 : ∀ i : grid0.Coords, EltTy.bits .f32 = 32 ∨ (Rect.block (s := S1024) S1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x1024.size a ≤ S128x1024.size a
  hwx0_19 : ∀ i : grid0.Coords, EltTy.bits .bf16 = 32 ∨ (Rect.block (s := S128x1024) S128x1024.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128.size a ≤ S128.size a
  hwx0_21 : ∀ i : grid0.Coords, EltTy.bits .f32 = 32 ∨ (Rect.block (s := S128) S128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128.size a ≤ S128.size a
  hwx0_23 : ∀ i : grid0.Coords, EltTy.bits .f32 = 32 ∨ (Rect.block (s := S128) S128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128.size a ≤ S128.size a
  hwx0_24 : ∀ i : grid0.Coords, EltTy.bits .f32 = 32 ∨ (Rect.block (s := S128) S128.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x128.size a ≤ S32768x128.size a
  hwx0_25 : ∀ i : grid0.Coords, EltTy.bits .f32 = 32 ∨ (Rect.block (s := S32768x128) S1024x128.size (cc0_transform_25 i) (hinb0_25 i)).WholeWords (EltTy.packing .f32)

variable [Facts₀]

def dot_S1024x784_S1024x784_S1024x1024_1_1_0_0_n_n : DotDims S1024x784 S1024x784 S1024x1024 where
  lhsContracting := [1]
  rhsContracting := [1]
  lhsNonContracting := [0]
  rhsNonContracting := [0]
  lhsBatch := []
  rhsBatch := []
  wf := dot_S1024x784_S1024x784_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v8) S128x1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v9) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v10) S128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v11) S128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v12) S128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v13) S128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v14) S1024x128.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S32768x784 : Shape := ⟨2, ![32768, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S784x1024 : Shape := ⟨2, ![784, 1024]⟩
abbrev S32768x1024 : Shape := ⟨2, ![32768, 1024]⟩
abbrev S1x1024 : Shape := ⟨2, ![1, 1024]⟩
abbrev S_ : Shape := ⟨0, ![]⟩
abbrev S1024x10 : Shape := ⟨2, ![1024, 10]⟩
abbrev S32768x10 : Shape := ⟨2, ![32768, 10]⟩
abbrev S1x10 : Shape := ⟨2, ![1, 10]⟩

abbrev nBuf : Space → Nat
  | .hbm => 141
  | .vmem => 0
  | .smem => 0
  | _ => 0

abbrev hbmTy0_0 (i : Nat) : BufTy := match i % 128 with
  | 0 => ⟨S32768x784, .f32⟩
  | 1 => ⟨S1024x784, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024x1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S10x1024, .f32⟩
  | 20 => ⟨S10, .f32⟩
  | 21 => ⟨S10, .f32⟩
  | 22 => ⟨S10, .f32⟩
  | 23 => ⟨S10, .f32⟩
  | 24 => ⟨S10, .f32⟩
  | 25 => ⟨S32768x784, .f32⟩
  | 26 => ⟨S1024x784, .f32⟩
  | 27 => ⟨S784x1024, .f32⟩
  | 28 => ⟨S32768x1024, .f32⟩
  | 29 => ⟨S1x1024, .f32⟩
  | 30 => ⟨S32768x1024, .f32⟩
  | 31 => ⟨S32768x1024, .f32⟩
  | 32 => ⟨S1x1024, .f32⟩
  | 33 => ⟨S32768x1024, .f32⟩
  | 34 => ⟨S32768x1024, .f32⟩
  | 35 => ⟨S1x1024, .f32⟩
  | 36 => ⟨S32768x1024, .f32⟩
  | 37 => ⟨S32768x1024, .f32⟩
  | 38 => ⟨S_, .f32⟩
  | 39 => ⟨S1024, .f32⟩
  | 40 => ⟨S1024, .f32⟩
  | 41 => ⟨S1024, .f32⟩
  | 42 => ⟨S1x1024, .f32⟩
  | 43 => ⟨S32768x1024, .f32⟩
  | 44 => ⟨S32768x1024, .f32⟩
  | 45 => ⟨S1x1024, .f32⟩
  | 46 => ⟨S32768x1024, .f32⟩
  | 47 => ⟨S32768x1024, .f32⟩
  | 48 => ⟨S_, .f32⟩
  | 49 => ⟨S_, .f32⟩
  | 50 => ⟨S_, .f32⟩
  | 51 => ⟨S32768x1024, .f32⟩
  | 52 => ⟨S32768x1024, .f32⟩
  | 53 => ⟨S_, .f32⟩
  | 54 => ⟨S32768x1024, .f32⟩
  | 55 => ⟨S32768x1024, .f32⟩
  | 56 => ⟨S32768x1024, .f32⟩
  | 57 => ⟨S1024x1024, .f32⟩
  | 58 => ⟨S1024x1024, .f32⟩
  | 59 => ⟨S32768x1024, .f32⟩
  | 60 => ⟨S1x1024, .f32⟩
  | 61 => ⟨S32768x1024, .f32⟩
  | 62 => ⟨S32768x1024, .f32⟩
  | 63 => ⟨S1x1024, .f32⟩
  | 64 => ⟨S32768x1024, .f32⟩
  | 65 => ⟨S32768x1024, .f32⟩
  | 66 => ⟨S1x1024, .f32⟩
  | 67 => ⟨S32768x1024, .f32⟩
  | 68 => ⟨S32768x1024, .f32⟩
  | 69 => ⟨S_, .f32⟩
  | 70 => ⟨S1024, .f32⟩
  | 71 => ⟨S1024, .f32⟩
  | 72 => ⟨S1024, .f32⟩
  | 73 => ⟨S1x1024, .f32⟩
  | 74 => ⟨S32768x1024, .f32⟩
  | 75 => ⟨S32768x1024, .f32⟩
  | 76 => ⟨S1x1024, .f32⟩
  | 77 => ⟨S32768x1024, .f32⟩
  | 78 => ⟨S32768x1024, .f32⟩
  | 79 => ⟨S_, .f32⟩
  | 80 => ⟨S_, .f32⟩
  | 81 => ⟨S_, .f32⟩
  | 82 => ⟨S32768x1024, .f32⟩
  | 83 => ⟨S32768x1024, .f32⟩
  | 84 => ⟨S_, .f32⟩
  | 85 => ⟨S32768x1024, .f32⟩
  | 86 => ⟨S32768x1024, .f32⟩
  | 87 => ⟨S32768x1024, .f32⟩
  | 88 => ⟨S1024x1024, .f32⟩
  | 89 => ⟨S1024x1024, .f32⟩
  | 90 => ⟨S32768x1024, .f32⟩
  | 91 => ⟨S1x1024, .f32⟩
  | 92 => ⟨S32768x1024, .f32⟩
  | 93 => ⟨S32768x1024, .f32⟩
  | 94 => ⟨S1x1024, .f32⟩
  | 95 => ⟨S32768x1024, .f32⟩
  | 96 => ⟨S32768x1024, .f32⟩
  | 97 => ⟨S1x1024, .f32⟩
  | 98 => ⟨S32768x1024, .f32⟩
  | 99 => ⟨S32768x1024, .f32⟩
  | 100 => ⟨S_, .f32⟩
  | 101 => ⟨S1024, .f32⟩
  | 102 => ⟨S1024, .f32⟩
  | 103 => ⟨S1024, .f32⟩
  | 104 => ⟨S1x1024, .f32⟩
  | 105 => ⟨S32768x1024, .f32⟩
  | 106 => ⟨S32768x1024, .f32⟩
  | 107 => ⟨S1x1024, .f32⟩
  | 108 => ⟨S32768x1024, .f32⟩
  | 109 => ⟨S32768x1024, .f32⟩
  | 110 => ⟨S_, .f32⟩
  | 111 => ⟨S_, .f32⟩
  | 112 => ⟨S_, .f32⟩
  | 113 => ⟨S32768x1024, .f32⟩
  | 114 => ⟨S32768x1024, .f32⟩
  | 115 => ⟨S_, .f32⟩
  | 116 => ⟨S32768x1024, .f32⟩
  | 117 => ⟨S32768x1024, .f32⟩
  | 118 => ⟨S32768x1024, .f32⟩
  | 119 => ⟨S10x1024, .f32⟩
  | 120 => ⟨S1024x10, .f32⟩
  | 121 => ⟨S32768x10, .f32⟩
  | 122 => ⟨S1x10, .f32⟩
  | 123 => ⟨S32768x10, .f32⟩
  | 124 => ⟨S32768x10, .f32⟩
  | 125 => ⟨S1x10, .f32⟩
  | 126 => ⟨S32768x10, .f32⟩
  | 127 => ⟨S32768x10, .f32⟩
  | _ => ⟨S32768x784, .f32⟩

abbrev hbmTy0_1 (i : Nat) : BufTy := match i % 128 with
  | 0 => ⟨S1x10, .f32⟩
  | 1 => ⟨S32768x10, .f32⟩
  | 2 => ⟨S32768x10, .f32⟩
  | 3 => ⟨S_, .f32⟩
  | 4 => ⟨S10, .f32⟩
  | 5 => ⟨S10, .f32⟩
  | 6 => ⟨S10, .f32⟩
  | 7 => ⟨S1x10, .f32⟩
  | 8 => ⟨S32768x10, .f32⟩
  | 9 => ⟨S32768x10, .f32⟩
  | 10 => ⟨S1x10, .f32⟩
  | 11 => ⟨S32768x10, .f32⟩
  | 12 => ⟨S32768x10, .f32⟩
  | _ => ⟨S32768x784, .f32⟩

abbrev hbmTy (i : Nat) : BufTy := match i / 128 with
  | 0 => hbmTy0_0 i
  | 1 => hbmTy0_1 i
  | _ => ⟨S32768x784, .f32⟩

abbrev bufTy : (tb : Table) → Fin (tcTables nBuf tb) → BufTy
  | .hbm, ⟨i, _⟩ => hbmTy i
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_0 : Ref sig .tc := ⟨.hbm, 48, rfl⟩
abbrev main_cst_1 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_2 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_3 : Ref sig .tc := ⟨.hbm, 79, rfl⟩
abbrev main_cst_4 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_5 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_6 : Ref sig .tc := ⟨.hbm, 110, rfl⟩
abbrev main_cst_7 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_8 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩

abbrev nD : Nat := 1
abbrev τ : Topo := Topo.v7x

variable {F : FTy → Type} [FloatOps F]

class Facts₀ : Prop where
  transposes_S1024x784_S784x1024_1_0 : S1024x784.Transposes [1, 0] S784x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S1024 : S_.BroadcastsInDim S1024 (![] : Fin 0 → Fin S1024.rank)
  bcast_S_S32768x1024 : S_.BroadcastsInDim S32768x1024 (![] : Fin 0 → Fin S32768x1024.rank)
  transposes_S1024x1024_S1024x1024_1_0 : S1024x1024.Transposes [1, 0] S1024x1024
  transposes_S10x1024_S1024x10_1_0 : S10x1024.Transposes [1, 0] S1024x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  bcast_S_S10 : S_.BroadcastsInDim S10 (![] : Fin 0 → Fin S10.rank)
  dot_S32768x784_S784x1024_S32768x1024_1_0_0_1_n_n_wf : DotDims.WF S32768x784 S784x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x10_S32768x10_1_0_0_1_n_n_wf : DotDims.WF S32768x1024 S1024x10 S32768x10 [1] [0] [0] [1] [] []

variable [Facts₀]

def dot_S32768x784_S784x1024_S32768x1024_1_0_0_1_n_n : DotDims S32768x784 S784x1024 S32768x1024 where
  lhsContracting := [1]
  rhsContracting := [0]
  lhsNonContracting := [0]
  rhsNonContracting := [1]
  lhsBatch := []
  rhsBatch := []
  wf := dot_S32768x784_S784x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x10_S32768x10_1_0_0_1_n_n : DotDims S32768x1024 S1024x10 S32768x10 where
  lhsContracting := [1]
  rhsContracting := [0]
  lhsNonContracting := [0]
  rhsNonContracting := [1]
  lhsBatch := []
  rhsBatch := []
  wf := dot_S32768x1024_S1024x10_S32768x10_1_0_0_1_n_n_wf

class Facts : Prop extends Facts₀ where

variable [Facts]
-- ==== Proof.Spec.lean ====
/-
  A four-layer binarized perceptron with inference-mode batch normalisation, on the extended reals.

  Every layer takes activations that are already signs, multiplies them against the rows of a weight matrix that
  is already a matrix of signs, adds a bias, and applies the batch-norm affine map
      h ↦ γ · (h − μ) · (σ² + ε)^(−1/2) + β,
  grouped exactly so.  Between two layers the activation passes through the sign function.  The network is ROW
  LOCAL: row r of the result depends on row r of the input only, so the network over any selection of the input's
  rows is that selection of the network's rows.

  The one law of the order that is needed: clamping to [−1, 1] does not change a sign, at the infinities too.
-/
import Idealize.ShloMosaic.Lib.ValueIdx
import Idealize.ShloMosaic.PureOps.Ideal.Laws
import Idealize.ShloMosaic.PureOps.IdealRules

noncomputable section

namespace Cert.BinMlp

open Idealize.ShloMosaic Idealize.ShloMosaic.ValueIdx

/-- The batch-norm epsilon: the exact value of the f32 word 1e-5 rounds to. -/
def eps : EReal := Ideal.ofBits .f32 0x3727C5AC#32

/-- Batch norm of one pre-activation `h`: γ · (h − μ) · (σ² + ε)^(−1/2) + β. -/
def bn (h g be mu va : EReal) : EReal := g * (h - mu) * Ideal.rsqrt (va + eps) + be

/-- One layer's parameters: the weight rows (already signs), bias, and the four batch-norm vectors. -/
structure Params (K N : ℕ) where
  w : Fin N → Fin K → EReal
  b : Fin N → EReal
  g : Fin N → EReal
  be : Fin N → EReal
  mu : Fin N → EReal
  va : Fin N → EReal

/-- One layer on signed activations `a`: entry (r, n) is the batch norm of  Σ_k a(r,k) · w(n,k) + b(n). -/
def layer {ι : Type} {K N : ℕ} (P : Params K N) (a : ι → Fin K → EReal) (r : ι) (n : Fin N) : EReal :=
  bn ((∑ k : Fin K, a r k * P.w n k) + P.b n) (P.g n) (P.be n) (P.mu n) (P.va n)

/-- The four layers, the sign taken between them; `sx` is the sign of the input. -/
def net {ι : Type} {N4 : ℕ} (P1 : Params 784 1024) (P2 P3 : Params 1024 1024) (P4 : Params 1024 N4)
    (sx : ι → Fin 784 → EReal) : ι → Fin N4 → EReal :=
  layer P4 fun r k => Ideal.sign (layer P3 (fun r k => Ideal.sign (layer P2 (fun r k => Ideal.sign (layer P1 sx r k)) r k)) r k)

/-- Parameters read off arrays: a weight matrix [N, K] whose entries are used as they stand, and five vectors [N]. -/
def Params.ofArrays {K N : ℕ} (w : (⟨2, ![N, K]⟩ : Shape).Idx → EReal) (b g be mu va : (⟨1, ![N]⟩ : Shape).Idx → EReal) :
    Params K N where
  w := fun n k => w (ix2 n k)
  b := fun n => b (ix1 n)
  g := fun n => g (ix1 n)
  be := fun n => be (ix1 n)
  mu := fun n => mu (ix1 n)
  va := fun n => va (ix1 n)

/-- The same, every weight replaced by its sign (the binarized weights). -/
def Params.ofSigned {K N : ℕ} (w : (⟨2, ![N, K]⟩ : Shape).Idx → EReal) (b g be mu va : (⟨1, ![N]⟩ : Shape).Idx → EReal) :
    Params K N :=
  Params.ofArrays (fun i => Ideal.sign (w i)) b g be mu va

/-- The whole computation as one function of the twenty-five argument arrays: entry (r, q) of the [32768, 10] result
    is the network's, on the signs of the input's row r, with every weight matrix binarized. -/
def result (x : (⟨2, ![32768, 784]⟩ : Shape).Idx → EReal)
    (w1 : (⟨2, ![1024, 784]⟩ : Shape).Idx → EReal) (b1 g1 be1 mu1 va1 : (⟨1, ![1024]⟩ : Shape).Idx → EReal)
    (w2 : (⟨2, ![1024, 1024]⟩ : Shape).Idx → EReal) (b2 g2 be2 mu2 va2 : (⟨1, ![1024]⟩ : Shape).Idx → EReal)
    (w3 : (⟨2, ![1024, 1024]⟩ : Shape).Idx → EReal) (b3 g3 be3 mu3 va3 : (⟨1, ![1024]⟩ : Shape).Idx → EReal)
    (w4 : (⟨2, ![10, 1024]⟩ : Shape).Idx → EReal) (b4 g4 be4 mu4 va4 : (⟨1, ![10]⟩ : Shape).Idx → EReal) :
    (⟨2, ![32768, 10]⟩ : Shape).Idx → EReal := fun i =>
  net (Params.ofSigned w1 b1 g1 be1 mu1 va1) (Params.ofSigned w2 b2 g2 be2 mu2 va2) (Params.ofSigned w3 b3 g3 be3 mu3 va3)
    (Params.ofSigned w4 b4 g4 be4 mu4 va4) (fun r k => Ideal.sign (x (ix2 r k))) (i 0) (i 1)

/-- Row locality: the network over a selection `f` of the rows is the selection of the network's rows. -/
theorem net_rows {ι κ : Type} {N4 : ℕ} (P1 : Params 784 1024) (P2 P3 : Params 1024 1024) (P4 : Params 1024 N4)
    (sx : ι → Fin 784 → EReal) (f : κ → ι) (p : κ) (q : Fin N4) :
    net P1 P2 P3 P4 (fun p => sx (f p)) p q = net P1 P2 P3 P4 sx (f p) q := rfl

/-- The last layer reads only row `n` of its own parameters: two parameter sets that agree on row `n` (through an
    embedding of a narrow layer's rows into a wider one's) give the same entry there. -/
theorem layer_congr_row {ι : Type} {K N N' : ℕ} (P : Params K N) (P' : Params K N') (a : ι → Fin K → EReal) (r : ι)
    (n : Fin N) (n' : Fin N') (hw : ∀ k, P.w n k = P'.w n' k) (hb : P.b n = P'.b n') (hg : P.g n = P'.g n')
    (hbe : P.be n = P'.be n') (hmu : P.mu n = P'.mu n') (hva : P.va n = P'.va n') :
    layer P a r n = layer P' a r n' := by
  unfold layer
  rw [hb, hg, hbe, hmu, hva]
  exact congrArg (fun s => bn (s + P'.b n') (P'.g n') (P'.be n') (P'.mu n') (P'.va n'))
    (Finset.sum_congr rfl fun k _ => by rw [hw k])

/-- Clamping to [−1, 1] keeps the sign of every extended real: below zero the clamp stays below zero, above zero it
    stays above, and zero is kept. -/
theorem sign_clamp (t : EReal) : Ideal.sign (min 1 (max (-1) t)) = Ideal.sign t := by
  have hm : (-1 : EReal) < 0 := by
    rw [show (-1 : EReal) = ((-1 : ℝ) : EReal) by simp]
    exact EReal.coe_neg'.mpr (by norm_num)
  rcases lt_trichotomy t 0 with h | h | h
  · rw [Ideal.sign_of_neg h, Ideal.sign_of_neg]
    exact lt_of_le_of_lt (min_le_right _ _) (max_lt hm h)
  · subst h
    rw [max_eq_right hm.le, min_eq_right zero_le_one]
  · rw [Ideal.sign_of_pos h, Ideal.sign_of_pos]
    exact lt_min zero_lt_one (lt_of_lt_of_le h (le_max_right _ _))

/-- The same over the f32 words the reference's clamp carries: 0xBF800000 is −1 and 0x3F800000 is 1. -/
theorem sign_clamp_words (t : EReal) :
    Ideal.sign (min (Ideal.ofBits .f32 0x3F800000#32) (max (Ideal.ofBits .f32 0xBF800000#32) t)) = Ideal.sign t := by
  have hp : Ideal.ofBits .f32 0x3F800000#32 = 1 := IdealRules.sign_bit.ideal_onePat .f32
  have hn : Ideal.ofBits .f32 0xBF800000#32 = -1 := IdealRules.sign_bit.ideal_negOnePat .f32
  rw [hp, hn]
  exact sign_clamp t

end Cert.BinMlp

end
-- ==== Proof.RefValue.lean ====
/-
  The reference computation read entry by entry.

  Each of its four stages — sign, product with the transposed sign matrix, bias, batch norm, and (for the first three) a
  clamp to [−1, 1] — is read at an entry (r, n) of its result as one layer of the network over the previous stage's
  signs.  The clamp sits between a batch norm and the next sign, and a clamp does not change a sign, so it drops
  out.  Composing the four readings gives the whole result as the network of the argument arrays.
-/
import proofs.«105338_j87522843558243_2_alg».proof.Proof.Gen.ReferenceIdeal.Read
import proofs.«105338_j87522843558243_2_alg».proof.Proof.Spec

noncomputable section

namespace Cert.BinMlp.Ref

open Cert.ReferenceIdeal Cert.ReferenceIdeal.Read Idealize.ShloMosaic Idealize.ShloMosaic.ValueIdx Cert.BinMlp

/-- Two rank-2 indices with the same coordinates are equal. -/
local macro "idx_eq2" : tactic => `(tactic| exact funext fun a => Fin.ext (by match a with | ⟨0, _⟩ => rfl | ⟨1, _⟩ => rfl))
/-- Two rank-1 indices with the same coordinate are equal. -/
local macro "idx_eq1" : tactic => `(tactic| exact funext fun a => Fin.ext (by match a with | ⟨0, _⟩ => rfl))

/-- Stage 1 at entry (r, n): the batch norm of the row's product with row n of the sign matrix, plus the bias. -/
theorem layer1 (x0 : (⟨S32768x784, .f32⟩ : BufTy).Contents (Elt Ideal)) (x1 : (⟨S1024x784, .f32⟩ : BufTy).Contents (Elt Ideal)) (x2 x3 x4 x5 x6 : (⟨S1024, .f32⟩ : BufTy).Contents (Elt Ideal)) (r : Fin 32768) (n : Fin 1024) :
    val_main_v21 (F := Ideal) x0 x1 x2 x3 x4 x5 x6 (ix2 r n)
      = layer (Params.ofSigned x1 x2 x3 x4 x5 x6) (fun r k => Ideal.sign (x0 (ix2 r k))) r n := by
  have hG : val_main_v11 (F := Ideal) x3 (ix2 r n) = x3 (ix1 n) := by
    rw [val_main_v11_apply, val_main_v10_apply]; exact congrArg x3 (by idx_eq1)
  have hB : val_main_v5 (F := Ideal) x2 (ix2 r n) = x2 (ix1 n) := by
    rw [val_main_v5_apply, val_main_v4_apply]; exact congrArg x2 (by idx_eq1)
  have hMU : val_main_v8 (F := Ideal) x5 (ix2 r n) = x5 (ix1 n) := by
    rw [val_main_v8_apply, val_main_v7_apply]; exact congrArg x5 (by idx_eq1)
  have hBE : val_main_v20 (F := Ideal) x4 (ix2 r n) = x4 (ix1 n) := by
    rw [val_main_v20_apply, val_main_v19_apply]; exact congrArg x4 (by idx_eq1)
  have hRS : val_main_v17 (F := Ideal) x6 (ix2 r n) = Ideal.rsqrt (x6 (ix1 n) + eps) := by
    rw [val_main_v17_apply, val_main_v16_apply, val_main_v15_apply, val_main_v14_apply, val_main_v13_apply, val_main_cst_apply]
    exact congrArg (fun t => Ideal.rsqrt (t + eps)) (congrArg x6 (by idx_eq1))
  have hS : val_main_v3 (F := Ideal) x0 x1 (ix2 r n)
      = ∑ k : Fin 784, Ideal.sign (x0 (ix2 r k)) * Ideal.sign (x1 (ix2 n k)) := by
    rw [val_main_v3_apply]
    refine Finset.sum_congr rfl fun k _ => ?_
    have eL : lidx_main_v3 (ix2 r n) k = ix2 r k := by idx_eq2
    have eR : idx_main_v2 (ridx_main_v3 (ix2 r n) k) = ix2 n k := by idx_eq2
    rw [val_main_v0_apply, val_main_v2_apply, val_main_v1_apply, eL, eR]
    rfl
  rw [val_main_v21_apply, val_main_v18_apply, val_main_v12_apply, val_main_v9_apply, val_main_v6_apply, hG, hB, hMU, hBE, hRS, hS]
  rfl

/-- Stage 2 at entry (r, n): the batch norm of the row's product with row n of the sign matrix, plus the bias; the clamp before the sign drops out. -/
theorem layer2 (x0 : (⟨S32768x784, .f32⟩ : BufTy).Contents (Elt Ideal)) (x1 : (⟨S1024x784, .f32⟩ : BufTy).Contents (Elt Ideal)) (x2 x3 x4 x5 x6 : (⟨S1024, .f32⟩ : BufTy).Contents (Elt Ideal)) (x7 : (⟨S1024x1024, .f32⟩ : BufTy).Contents (Elt Ideal)) (x8 x9 x10 x11 x12 : (⟨S1024, .f32⟩ : BufTy).Contents (Elt Ideal)) (r : Fin 32768) (n : Fin 1024) :
    val_main_v44 (F := Ideal) x0 x1 x2 x3 x4 x5 x6 x7 x8 x9 x10 x11 x12 (ix2 r n)
      = layer (Params.ofSigned x7 x8 x9 x10 x11 x12) (fun r k => Ideal.sign (val_main_v21 (F := Ideal) x0 x1 x2 x3 x4 x5 x6 (ix2 r k))) r n := by
  have hG : val_main_v34 (F := Ideal) x9 (ix2 r n) = x9 (ix1 n) := by
    rw [val_main_v34_apply, val_main_v33_apply]; exact congrArg x9 (by idx_eq1)
  have hB : val_main_v28 (F := Ideal) x8 (ix2 r n) = x8 (ix1 n) := by
    rw [val_main_v28_apply, val_main_v27_apply]; exact congrArg x8 (by idx_eq1)
  have hMU : val_main_v31 (F := Ideal) x11 (ix2 r n) = x11 (ix1 n) := by
    rw [val_main_v31_apply, val_main_v30_apply]; exact congrArg x11 (by idx_eq1)
  have hBE : val_main_v43 (F := Ideal) x10 (ix2 r n) = x10 (ix1 n) := by
    rw [val_main_v43_apply, val_main_v42_apply]; exact congrArg x10 (by idx_eq1)
  have hRS : val_main_v40 (F := Ideal) x12 (ix2 r n) = Ideal.rsqrt (x12 (ix1 n) + eps) := by
    rw [val_main_v40_apply, val_main_v39_apply, val_main_v38_apply, val_main_v37_apply, val_main_v36_apply, val_main_cst_2_apply]
    exact congrArg (fun t => Ideal.rsqrt (t + eps)) (congrArg x12 (by idx_eq1))
  have hS : val_main_v26 (F := Ideal) x0 x1 x2 x3 x4 x5 x6 x7 (ix2 r n)
      = ∑ k : Fin 1024, Ideal.sign (val_main_v21 (F := Ideal) x0 x1 x2 x3 x4 x5 x6 (ix2 r k)) * Ideal.sign (x7 (ix2 n k)) := by
    rw [val_main_v26_apply]
    refine Finset.sum_congr rfl fun k _ => ?_
    have eL : lidx_main_v26 (ix2 r n) k = ix2 r k := by idx_eq2
    have eR : idx_main_v25 (ridx_main_v26 (ix2 r n) k) = ix2 n k := by idx_eq2
    rw [val_main_v23_apply, val_main_v22_apply, val_main_call0_v2_apply, val_main_call0_v4_apply, val_main_call0_v3_apply,
      val_main_cst_1_apply, val_main_call0_v1_apply, val_main_call0_v0_apply, val_main_cst_0_apply, val_main_v25_apply,
      val_main_v24_apply, eL, eR]
    exact congrArg (· * Ideal.sign (x7 (ix2 n k))) (sign_clamp_words _)
  rw [val_main_v44_apply, val_main_v41_apply, val_main_v35_apply, val_main_v32_apply, val_main_v29_apply, hG, hB, hMU, hBE, hRS, hS]
  rfl

/-- Stage 3 at entry (r, n): the batch norm of the row's product with row n of the sign matrix, plus the bias; the clamp before the sign drops out. -/
theorem layer3 (x0 : (⟨S32768x784, .f32⟩ : BufTy).Contents (Elt Ideal)) (x1 : (⟨S1024x784, .f32⟩ : BufTy).Contents (Elt Ideal)) (x2 x3 x4 x5 x6 : (⟨S1024, .f32⟩ : BufTy).Contents (Elt Ideal)) (x7 : (⟨S1024x1024, .f32⟩ : BufTy).Contents (Elt Ideal)) (x8 x9 x10 x11 x12 : (⟨S1024, .f32⟩ : BufTy).Contents (Elt Ideal)) (x13 : (⟨S1024x1024, .f32⟩ : BufTy).Contents (Elt Ideal)) (x14 x15 x16 x17 x18 : (⟨S1024, .f32⟩ : BufTy).Contents (Elt Ideal)) (r : Fin 32768) (n : Fin 1024) :
    val_main_v67 (F := Ideal) x0 x1 x2 x3 x4 x5 x6 x7 x8 x9 x10 x11 x12 x13 x14 x15 x16 x17 x18 (ix2 r n)
      = layer (Params.ofSigned x13 x14 x15 x16 x17 x18) (fun r k => Ideal.sign (val_main_v44 (F := Ideal) x0 x1 x2 x3 x4 x5 x6 x7 x8 x9 x10 x11 x12 (ix2 r k))) r n := by
  have hG : val_main_v57 (F := Ideal) x15 (ix2 r n) = x15 (ix1 n) := by
    rw [val_main_v57_apply, val_main_v56_apply]; exact congrArg x15 (by idx_eq1)
  have hB : val_main_v51 (F := Ideal) x14 (ix2 r n) = x14 (ix1 n) := by
    rw [val_main_v51_apply, val_main_v50_apply]; exact congrArg x14 (by idx_eq1)
  have hMU : val_main_v54 (F := Ideal) x17 (ix2 r n) = x17 (ix1 n) := by
    rw [val_main_v54_apply, val_main_v53_apply]; exact congrArg x17 (by idx_eq1)
  have hBE : val_main_v66 (F := Ideal) x16 (ix2 r n) = x16 (ix1 n) := by
    rw [val_main_v66_apply, val_main_v65_apply]; exact congrArg x16 (by idx_eq1)
  have hRS : val_main_v63 (F := Ideal) x18 (ix2 r n) = Ideal.rsqrt (x18 (ix1 n) + eps) := by
    rw [val_main_v63_apply, val_main_v62_apply, val_main_v61_apply, val_main_v60_apply, val_main_v59_apply, val_main_cst_5_apply]
    exact congrArg (fun t => Ideal.rsqrt (t + eps)) (congrArg x18 (by idx_eq1))
  have hS : val_main_v49 (F := Ideal) x0 x1 x2 x3 x4 x5 x6 x7 x8 x9 x10 x11 x12 x13 (ix2 r n)
      = ∑ k : Fin 1024, Ideal.sign (val_main_v44 (F := Ideal) x0 x1 x2 x3 x4 x5 x6 x7 x8 x9 x10 x11 x12 (ix2 r k)) * Ideal.sign (x13 (ix2 n k)) := by
    rw [val_main_v49_apply]
    refine Finset.sum_congr rfl fun k _ => ?_
    have eL : lidx_main_v49 (ix2 r n) k = ix2 r k := by idx_eq2
    have eR : idx_main_v48 (ridx_main_v49 (ix2 r n) k) = ix2 n k := by idx_eq2
    rw [val_main_v46_apply, val_main_v45_apply, val_main_call1_v2_apply, val_main_call1_v4_apply, val_main_call1_v3_apply,
      val_main_cst_4_apply, val_main_call1_v1_apply, val_main_call1_v0_apply, val_main_cst_3_apply, val_main_v48_apply,
      val_main_v47_apply, eL, eR]
    exact congrArg (· * Ideal.sign (x13 (ix2 n k))) (sign_clamp_words _)
  rw [val_main_v67_apply, val_main_v64_apply, val_main_v58_apply, val_main_v55_apply, val_main_v52_apply, hG, hB, hMU, hBE, hRS, hS]
  rfl

/-- Stage 4 at entry (r, n): the batch norm of the row's product with row n of the sign matrix, plus the bias; the clamp before the sign drops out. -/
theorem layer4 (x0 : (⟨S32768x784, .f32⟩ : BufTy).Contents (Elt Ideal)) (x1 : (⟨S1024x784, .f32⟩ : BufTy).Contents (Elt Ideal)) (x2 x3 x4 x5 x6 : (⟨S1024, .f32⟩ : BufTy).Contents (Elt Ideal)) (x7 : (⟨S1024x1024, .f32⟩ : BufTy).Contents (Elt Ideal)) (x8 x9 x10 x11 x12 : (⟨S1024, .f32⟩ : BufTy).Contents (Elt Ideal)) (x13 : (⟨S1024x1024, .f32⟩ : BufTy).Contents (Elt Ideal)) (x14 x15 x16 x17 x18 : (⟨S1024, .f32⟩ : BufTy).Contents (Elt Ideal)) (x19 : (⟨S10x1024, .f32⟩ : BufTy).Contents (Elt Ideal)) (x20 x21 x22 x23 x24 : (⟨S10, .f32⟩ : BufTy).Contents (Elt Ideal)) (r : Fin 32768) (n : Fin 10) :
    val_main_v90 (F := Ideal) x0 x1 x2 x3 x4 x5 x6 x7 x8 x9 x10 x11 x12 x13 x14 x15 x16 x17 x18 x19 x20 x21 x22 x23 x24 (ix2 r n)
      = layer (Params.ofSigned x19 x20 x21 x22 x23 x24) (fun r k => Ideal.sign (val_main_v67 (F := Ideal) x0 x1 x2 x3 x4 x5 x6 x7 x8 x9 x10 x11 x12 x13 x14 x15 x16 x17 x18 (ix2 r k))) r n := by
  have hG : val_main_v80 (F := Ideal) x21 (ix2 r n) = x21 (ix1 n) := by
    rw [val_main_v80_apply, val_main_v79_apply]; exact congrArg x21 (by idx_eq1)
  have hB : val_main_v74 (F := Ideal) x20 (ix2 r n) = x20 (ix1 n) := by
    rw [val_main_v74_apply, val_main_v73_apply]; exact congrArg x20 (by idx_eq1)
  have hMU : val_main_v77 (F := Ideal) x23 (ix2 r n) = x23 (ix1 n) := by
    rw [val_main_v77_apply, val_main_v76_apply]; exact congrArg x23 (by idx_eq1)
  have hBE : val_main_v89 (F := Ideal) x22 (ix2 r n) = x22 (ix1 n) := by
    rw [val_main_v89_apply, val_main_v88_apply]; exact congrArg x22 (by idx_eq1)
  have hRS : val_main_v86 (F := Ideal) x24 (ix2 r n) = Ideal.rsqrt (x24 (ix1 n) + eps) := by
    rw [val_main_v86_apply, val_main_v85_apply, val_main_v84_apply, val_main_v83_apply, val_main_v82_apply, val_main_cst_8_apply]
    exact congrArg (fun t => Ideal.rsqrt (t + eps)) (congrArg x24 (by idx_eq1))
  have hS : val_main_v72 (F := Ideal) x0 x1 x2 x3 x4 x5 x6 x7 x8 x9 x10 x11 x12 x13 x14 x15 x16 x17 x18 x19 (ix2 r n)
      = ∑ k : Fin 1024, Ideal.sign (val_main_v67 (F := Ideal) x0 x1 x2 x3 x4 x5 x6 x7 x8 x9 x10 x11 x12 x13 x14 x15 x16 x17 x18 (ix2 r k)) * Ideal.sign (x19 (ix2 n k)) := by
    rw [val_main_v72_apply]
    refine Finset.sum_congr rfl fun k _ => ?_
    have eL : lidx_main_v72 (ix2 r n) k = ix2 r k := by idx_eq2
    have eR : idx_main_v71 (ridx_main_v72 (ix2 r n) k) = ix2 n k := by idx_eq2
    rw [val_main_v69_apply, val_main_v68_apply, val_main_call2_v2_apply, val_main_call2_v4_apply, val_main_call2_v3_apply,
      val_main_cst_7_apply, val_main_call2_v1_apply, val_main_call2_v0_apply, val_main_cst_6_apply, val_main_v71_apply,
      val_main_v70_apply, eL, eR]
    exact congrArg (· * Ideal.sign (x19 (ix2 n k))) (sign_clamp_words _)
  rw [val_main_v90_apply, val_main_v87_apply, val_main_v81_apply, val_main_v78_apply, val_main_v75_apply, hG, hB, hMU, hBE, hRS, hS]
  rfl

/-- The reference's result is the network of the argument arrays, entry by entry. -/
theorem result_eq (x0 : (⟨S32768x784, .f32⟩ : BufTy).Contents (Elt Ideal)) (x1 : (⟨S1024x784, .f32⟩ : BufTy).Contents (Elt Ideal)) (x2 x3 x4 x5 x6 : (⟨S1024, .f32⟩ : BufTy).Contents (Elt Ideal)) (x7 : (⟨S1024x1024, .f32⟩ : BufTy).Contents (Elt Ideal)) (x8 x9 x10 x11 x12 : (⟨S1024, .f32⟩ : BufTy).Contents (Elt Ideal)) (x13 : (⟨S1024x1024, .f32⟩ : BufTy).Contents (Elt Ideal)) (x14 x15 x16 x17 x18 : (⟨S1024, .f32⟩ : BufTy).Contents (Elt Ideal)) (x19 : (⟨S10x1024, .f32⟩ : BufTy).Contents (Elt Ideal)) (x20 x21 x22 x23 x24 : (⟨S10, .f32⟩ : BufTy).Contents (Elt Ideal)) :
    val_main_v90 (F := Ideal) x0 x1 x2 x3 x4 x5 x6 x7 x8 x9 x10 x11 x12 x13 x14 x15 x16 x17 x18 x19 x20 x21 x22 x23 x24 = result x0 x1 x2 x3 x4 x5 x6 x7 x8 x9 x10 x11 x12 x13 x14 x15 x16 x17 x18 x19 x20 x21 x22 x23 x24 := by
  funext i
  obtain ⟨r, q, rfl⟩ : ∃ (r : Fin 32768) (q : Fin 10), i = ix2 r q := ⟨i 0, i 1, eq_ix2 i⟩
  rw [layer4]
  simp only [layer3, layer2, layer1]
  rfl

end Cert.BinMlp.Ref

end
-- ==== Proof.LibMatmulLastAxes.lean ====
/-
  A matrix product that contracts the LAST axis of both operands — `lhs : [a, n]`, `rhs : [b, n]`, result `[a, b]`,
  the accumulator the zero splat — read at an entry on the extended reals:
  `(lhs · rhsᵀ) (p, q) = ∑ k, lhs (p, k) * rhs (q, k)`.
  The dimension record enters through its two index maps read coordinate by coordinate (four facts, each decided
  on a literal record): a row of the result reads the same row of the left operand, a column of the result reads
  that ROW of the right operand, and the one contracted coordinate runs over the last axis of both.
  General in the extents and in the operands' formats.
-/
import Idealize.ShloMosaic.Lib.ValueIdx
import Idealize.ShloMosaic.PureOps.Ideal.Laws

namespace Idealize.ShloMosaic.ValueIdx

open Idealize.ShloMosaic

/-- `(lhs · rhsᵀ) (p, q) = ∑ k, lhs (p, k) * rhs (q, k)` for a product into the zero accumulator whose record
    contracts axis 1 of both operands. -/
theorem matmul_zero_lastAxes_apply {a b n : ℕ} {φ₁ φ₂ : FTy}
    (D : DotDims ⟨2, ![a, n]⟩ ⟨2, ![b, n]⟩ ⟨2, ![a, b]⟩) (prec : Option ContractPrecision)
    (hr : D.contr.rank = 1) (hs : D.contr.size ⟨0, by omega⟩ = n)
    (hl0 : ∀ (j : (⟨2, ![a, b]⟩ : Shape).Idx) (k : D.contr.Idx), (D.lhsIdx j k 0).val = (j 0).val)
    (hl1 : ∀ (j : (⟨2, ![a, b]⟩ : Shape).Idx) (k : D.contr.Idx), (D.lhsIdx j k 1).val = (k ⟨0, by omega⟩).val)
    (hr0 : ∀ (j : (⟨2, ![a, b]⟩ : Shape).Idx) (k : D.contr.Idx), (D.rhsIdx j k 0).val = (j 1).val)
    (hr1 : ∀ (j : (⟨2, ![a, b]⟩ : Shape).Idx) (k : D.contr.Idx), (D.rhsIdx j k 1).val = (k ⟨0, by omega⟩).val)
    (lhs : FVec Ideal ⟨2, ![a, n]⟩ φ₁) (rhs : FVec Ideal ⟨2, ![b, n]⟩ φ₂) (p : Fin a) (q : Fin b) :
    FloatOps.matmul D prec lhs rhs (constant ⟨2, ![a, b]⟩ .f32 0x00000000#32) (ix2 p q)
      = ∑ k : Fin n, lhs (ix2 p k) * rhs (ix2 q k) := by
  rw [Ideal.matmul_constant_zero_apply, ← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

end Idealize.ShloMosaic.ValueIdx
-- ==== Proof.KernelPayload.lean ====
/-
  The kernel body's arithmetic read entry by entry.

  The body computes, on one block of 1024 input rows, the four layers in turn: the sign of the block, its product with
  the rows of a sign matrix (a product that contracts the last axis of both operands), the bias and the batch norm,
  then the sign again.  Its arithmetic is cut into four pieces at points that do not coincide with the layers; each
  piece is read here at an entry as a function of its inputs at entries, and the pieces are then put together: the
  value the body stores at (p, q) is the network at (p, q) over the block's rows.

  The in-body sign is the select form  (|v| > 0 ? (v < 0 ? −1 : 1) : v),  which is the sign of every extended real.
  A vector of parameters enters as one row broadcast down the block's rows.
-/
import proofs.«105338_j87522843558243_2_alg».proof.Proof.Gen.KernelIdeal.Skeleton
import proofs.«105338_j87522843558243_2_alg».proof.Proof.Spec
import proofs.«105338_j87522843558243_2_alg».proof.Proof.LibMatmulLastAxes
import Idealize.ShloMosaic.Lib.ValueLayout
import Idealize.ShloMosaic.Lib.Pipeline.Value

noncomputable section

namespace Cert.BinMlp.Kernel

open Cert.KernelIdeal Cert.KernelIdeal.Gen Idealize.ShloMosaic Idealize.ShloMosaic.ValueIdx Cert.BinMlp

/-- A batch norm assembled from its parts. -/
theorem bn_of_parts {h g be mu va : EReal} {G MU RS BE : EReal} (hG : G = g) (hMU : MU = mu)
    (hRS : RS = Ideal.rsqrt (va + eps)) (hBE : BE = be) : G * (h - MU) * RS + BE = bn h g be mu va := by
  subst hG hMU hRS hBE; rfl

/-- A layer's entry assembled from its parts: the product, the bias, and the batch norm's four entries. -/
theorem layer_of_parts {ι : Type} {K N : ℕ} (P : Params K N) (a : ι → Fin K → EReal) (r : ι) (n : Fin N)
    {S B G MU RS BE : EReal} (hS : S = ∑ k : Fin K, a r k * P.w n k) (hB : B = P.b n) (hG : G = P.g n)
    (hMU : MU = P.mu n) (hRS : RS = Ideal.rsqrt (P.va n + eps)) (hBE : BE = P.be n) :
    G * (S + B - MU) * RS + BE = layer P a r n := by
  subst hS hB hG hMU hRS hBE; rfl

/-- A vector [b] cast to one row [1, b] and broadcast down `a` rows reads, at (p, c), the vector at c. -/
theorem row_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The body's product into the zero accumulator through `dot_S1024x784_S1024x784_S1024x1024_1_1_0_0_n_n` at entry (p, q): row p of the left operand against ROW q of the right. -/
theorem mm1 (lhs : FVec Ideal S1024x784 .bf16) (rhs : FVec Ideal S1024x784 .bf16) (p : Fin 1024) (q : Fin 1024) :
    FloatOps.matmul dot_S1024x784_S1024x784_S1024x1024_1_1_0_0_n_n none lhs rhs (constant S1024x1024 .f32 0x00000000#32) (ix2 p q)
      = ∑ k : Fin 784, lhs (ix2 p k) * rhs (ix2 q k) :=
  matmul_zero_lastAxes_apply dot_S1024x784_S1024x784_S1024x1024_1_1_0_0_n_n none rfl rfl
    (fun j k => by
      unfold DotDims.lhsIdx
      rw [dif_neg (show ¬(0 : Fin S1024x784.rank) ∈ dot_S1024x784_S1024x784_S1024x1024_1_1_0_0_n_n.lhsBatch by decide),
        dif_pos (show (0 : Fin S1024x784.rank) ∈ dot_S1024x784_S1024x784_S1024x1024_1_1_0_0_n_n.lhsNonContracting by decide)]
      rfl)
    (fun j k => dot_S1024x784_S1024x784_S1024x1024_1_1_0_0_n_n.lhsIdx_val_of_single rfl j k)
    (fun j k => by
      unfold DotDims.rhsIdx
      rw [dif_neg (show ¬(0 : Fin S1024x784.rank) ∈ dot_S1024x784_S1024x784_S1024x1024_1_1_0_0_n_n.rhsBatch by decide),
        dif_pos (show (0 : Fin S1024x784.rank) ∈ dot_S1024x784_S1024x784_S1024x1024_1_1_0_0_n_n.rhsNonContracting by decide)]
      rfl)
    (fun j k => dot_S1024x784_S1024x784_S1024x1024_1_1_0_0_n_n.rhsIdx_val_of_single rfl j k)
    lhs rhs p q

/-- The body's product into the zero accumulator through `dot_S1024x1024_S1024x1024_S1024x1024_1_1_0_0_n_n` at entry (p, q): row p of the left operand against ROW q of the right. -/
theorem mm2 (lhs : FVec Ideal S1024x1024 .bf16) (rhs : FVec Ideal S1024x1024 .bf16) (p : Fin 1024) (q : Fin 1024) :
    FloatOps.matmul dot_S1024x1024_S1024x1024_S1024x1024_1_1_0_0_n_n none lhs rhs (constant S1024x1024 .f32 0x00000000#32) (ix2 p q)
      = ∑ k : Fin 1024, lhs (ix2 p k) * rhs (ix2 q k) :=
  matmul_zero_lastAxes_apply dot_S1024x1024_S1024x1024_S1024x1024_1_1_0_0_n_n none rfl rfl
    (fun j k => by
      unfold DotDims.lhsIdx
      rw [dif_neg (show ¬(0 : Fin S1024x1024.rank) ∈ dot_S1024x1024_S1024x1024_S1024x1024_1_1_0_0_n_n.lhsBatch by decide),
        dif_pos (show (0 : Fin S1024x1024.rank) ∈ dot_S1024x1024_S1024x1024_S1024x1024_1_1_0_0_n_n.lhsNonContracting by decide)]
      rfl)
    (fun j k => dot_S1024x1024_S1024x1024_S1024x1024_1_1_0_0_n_n.lhsIdx_val_of_single rfl j k)
    (fun j k => by
      unfold DotDims.rhsIdx
      rw [dif_neg (show ¬(0 : Fin S1024x1024.rank) ∈ dot_S1024x1024_S1024x1024_S1024x1024_1_1_0_0_n_n.rhsBatch by decide),
        dif_pos (show (0 : Fin S1024x1024.rank) ∈ dot_S1024x1024_S1024x1024_S1024x1024_1_1_0_0_n_n.rhsNonContracting by decide)]
      rfl)
    (fun j k => dot_S1024x1024_S1024x1024_S1024x1024_1_1_0_0_n_n.rhsIdx_val_of_single rfl j k)
    lhs rhs p q

/-- The body's product into the zero accumulator through `dot_S1024x1024_S128x1024_S1024x128_1_1_0_0_n_n` at entry (p, q): row p of the left operand against ROW q of the right. -/
theorem mm3 (lhs : FVec Ideal S1024x1024 .bf16) (rhs : FVec Ideal S128x1024 .bf16) (p : Fin 1024) (q : Fin 128) :
    FloatOps.matmul dot_S1024x1024_S128x1024_S1024x128_1_1_0_0_n_n none lhs rhs (constant S1024x128 .f32 0x00000000#32) (ix2 p q)
      = ∑ k : Fin 1024, lhs (ix2 p k) * rhs (ix2 q k) :=
  matmul_zero_lastAxes_apply dot_S1024x1024_S128x1024_S1024x128_1_1_0_0_n_n none rfl rfl
    (fun j k => by
      unfold DotDims.lhsIdx
      rw [dif_neg (show ¬(0 : Fin S1024x1024.rank) ∈ dot_S1024x1024_S128x1024_S1024x128_1_1_0_0_n_n.lhsBatch by decide),
        dif_pos (show (0 : Fin S1024x1024.rank) ∈ dot_S1024x1024_S128x1024_S1024x128_1_1_0_0_n_n.lhsNonContracting by decide)]
      rfl)
    (fun j k => dot_S1024x1024_S128x1024_S1024x128_1_1_0_0_n_n.lhsIdx_val_of_single rfl j k)
    (fun j k => by
      unfold DotDims.rhsIdx
      rw [dif_neg (show ¬(0 : Fin S128x1024.rank) ∈ dot_S1024x1024_S128x1024_S1024x128_1_1_0_0_n_n.rhsBatch by decide),
        dif_pos (show (0 : Fin S128x1024.rank) ∈ dot_S1024x1024_S128x1024_S1024x128_1_1_0_0_n_n.rhsNonContracting by decide)]
      rfl)
    (fun j k => dot_S1024x1024_S128x1024_S1024x128_1_1_0_0_n_n.rhsIdx_val_of_single rfl j k)
    lhs rhs p q

/-- First piece: the sign of layer 1 on the signs of the block. -/
theorem pay2_apply (v0 : Vec Ideal S1024x784 .f32) (v12 : Vec Ideal S1024x784 .bf16) (v15 v19 v20 v21 v22 : Vec Ideal S1024 .f32)
    (p n : Fin 1024) :
    k0_pay2 (F := Ideal) v0 v12 v15 v19 v20 v21 v22 (ix2 p n)
      = Ideal.sign (layer (Params.ofArrays v12 v15 v19 v20 v21 v22) (fun p k => Ideal.sign (v0 (ix2 p k))) p n) := by
  refine (Ideal.jnp_sign_eq_sign_f32 _).trans (congrArg Ideal.sign ?_)
  refine layer_of_parts (Params.ofArrays v12 v15 v19 v20 v21 v22) _ p n ?_ ?_ ?_ ?_ ?_ ?_
  · refine (mm1 _ _ p n).trans (Finset.sum_congr rfl fun k _ => ?_)
    exact congrArg₂ (· * ·) (Ideal.jnp_sign_eq_sign_f32 _) (congrFun (shapeCast_self v12 _) _)
  · exact row_apply v15 _ _ p n
  · exact row_apply v19 _ _ p n
  · exact row_apply v21 _ _ p n
  · refine (broadcastTo_1b_ab_apply _ _ p n).trans ?_
    exact congrArg (fun t => Ideal.rsqrt (t + eps)) (shapeCast_a_1a_apply v22 _ 0 n)
  · exact row_apply v20 _ _ p n

/-- Second piece: layer 2 on the first piece's signs, its sign, and the product and bias of layer 3. -/
theorem pay3_apply (v47 : FVec Ideal S1024x1024 .f32) (v49 : Vec Ideal S1024x1024 .bf16) (v52 v56 v57 v58 v59 : Vec Ideal S1024 .f32)
    (v86 : Vec Ideal S1024x1024 .bf16) (v89 : Vec Ideal S1024 .f32) (p n : Fin 1024) :
    k0_pay3 (F := Ideal) v47 v49 v52 v56 v57 v58 v59 v86 v89 (ix2 p n)
      = (∑ k : Fin 1024, Ideal.sign (layer (Params.ofArrays v49 v52 v56 v57 v58 v59) (fun p j => v47 (ix2 p j)) p k) * v86 (ix2 n k))
        + v89 (ix1 n) := by
  refine congrArg₂ (· + ·) ?_ (row_apply v89 _ _ p n)
  refine (mm2 _ _ p n).trans (Finset.sum_congr rfl fun k _ => ?_)
  refine congrArg₂ (· * ·) ?_ (congrFun (shapeCast_self v86 _) _)
  refine (Ideal.jnp_sign_eq_sign_f32 _).trans (congrArg Ideal.sign ?_)
  refine layer_of_parts (Params.ofArrays v49 v52 v56 v57 v58 v59) _ p k ?_ ?_ ?_ ?_ ?_ ?_
  · refine (mm2 _ _ p k).trans (Finset.sum_congr rfl fun j _ => ?_)
    exact congrArg (v47 (ix2 p j) * ·) (congrFun (shapeCast_self v49 _) _)
  · exact row_apply v52 _ _ p k
  · exact row_apply v56 _ _ p k
  · exact row_apply v58 _ _ p k
  · refine (broadcastTo_1b_ab_apply _ _ p k).trans ?_
    exact congrArg (fun t => Ideal.rsqrt (t + eps)) (shapeCast_a_1a_apply v59 _ 0 k)
  · exact row_apply v57 _ _ p k

/-- Third piece: the batch norm of layer 3, its sign, and the product and bias of layer 4. -/
theorem pay4_apply (v92 : FVec Ideal S1024x1024 .f32) (v93 v94 v95 v96 : Vec Ideal S1024 .f32) (v123 : Vec Ideal S128x1024 .bf16)
    (v126 : Vec Ideal S128 .f32) (p : Fin 1024) (q : Fin 128) :
    k0_pay4 (F := Ideal) v92 v93 v94 v95 v96 v123 v126 (ix2 p q)
      = (∑ k : Fin 1024, Ideal.sign (bn (v92 (ix2 p k)) (v93 (ix1 k)) (v94 (ix1 k)) (v95 (ix1 k)) (v96 (ix1 k))) * v123 (ix2 q k))
        + v126 (ix1 q) := by
  refine congrArg₂ (· + ·) ?_ ((row_apply _ _ _ p q).trans (congrFun (shapeCast_self v126 _) _))
  refine (mm3 _ _ p q).trans (Finset.sum_congr rfl fun k _ => ?_)
  refine congrArg₂ (· * ·) ?_ (congrFun (shapeCast_self v123 _) _)
  refine (Ideal.jnp_sign_eq_sign_f32 _).trans (congrArg Ideal.sign ?_)
  refine bn_of_parts ?_ ?_ ?_ ?_
  · exact row_apply v93 _ _ p k
  · exact row_apply v95 _ _ p k
  · refine (broadcastTo_1b_ab_apply _ _ p k).trans ?_
    exact congrArg (fun t => Ideal.rsqrt (t + eps)) (shapeCast_a_1a_apply v96 _ 0 k)
  · exact row_apply v94 _ _ p k

/-- Last piece: the batch norm of layer 4, its four vectors already cast. -/
theorem pay1_apply (v130 : FVec Ideal S1024x128 .f32) (v138 : FVec Ideal S128 .f32) (v139 v140 v141 : FVec Ideal S1x128 .f32)
    (p : Fin 1024) (q : Fin 128) :
    k0_pay1 (F := Ideal) v130 v138 v139 v140 v141 (ix2 p q)
      = bn (v130 (ix2 p q)) (v139 (ix2 (0 : Fin 1) q)) (v140 (ix2 (0 : Fin 1) q)) (v141 (ix2 (0 : Fin 1) q)) (v138 (ix1 q)) := by
  refine bn_of_parts ?_ ?_ ?_ ?_
  · exact broadcastTo_1b_ab_apply v139 _ p q
  · exact broadcastTo_1b_ab_apply v141 _ p q
  · refine (broadcastTo_1b_ab_apply _ _ p q).trans ?_
    exact congrArg (fun t => Ideal.rsqrt (t + eps)) (shapeCast_a_1a_apply v138 _ 0 q)
  · exact broadcastTo_1b_ab_apply v140 _ p q

/-- The variance vector of layer 4 passes through a cast to its own shape. -/
theorem pay5_apply (v : Vec Ideal S128 .f32) (q : Fin 128) : k0_pay5 (F := Ideal) v (ix1 q) = v (ix1 q) :=
  congrFun (shapeCast_self v _) _

/-- The other three vectors of layer 4 are cast to their own shape, then to one row. -/
theorem pay6_apply (v : Vec Ideal S128 .f32) (q : Fin 128) : k0_pay6 (F := Ideal) v (ix2 (0 : Fin 1) q) = v (ix1 q) := by
  unfold k0_pay6
  exact (shapeCast_a_1a_apply (shapeCast S128 v shapeCasts_S128_S128) shapeCasts_S128_S1x128 0 q).trans
    (congrFun (shapeCast_self v shapeCasts_S128_S128) (ix1 q))
theorem pay7_apply (v : Vec Ideal S128 .f32) (q : Fin 128) : k0_pay7 (F := Ideal) v (ix2 (0 : Fin 1) q) = v (ix1 q) := by
  unfold k0_pay7
  exact (shapeCast_a_1a_apply (shapeCast S128 v shapeCasts_S128_S128) shapeCasts_S128_S1x128 0 q).trans
    (congrFun (shapeCast_self v shapeCasts_S128_S128) (ix1 q))
theorem pay8_apply (v : Vec Ideal S128 .f32) (q : Fin 128) : k0_pay8 (F := Ideal) v (ix2 (0 : Fin 1) q) = v (ix1 q) := by
  unfold k0_pay8
  exact (shapeCast_a_1a_apply (shapeCast S128 v shapeCasts_S128_S128) shapeCasts_S128_S1x128 0 q).trans
    (congrFun (shapeCast_self v shapeCasts_S128_S128) (ix1 q))

/-- THE BODY'S STORED VALUE at (p, q): the network at (p, q) over the block's rows, every parameter array read as it
    stands (the weight blocks already hold signs). -/
theorem body_apply (x0 : Vec Ideal S1024x784 .f32) (x1 : Vec Ideal S1024x784 .bf16) (x2 x3 x4 x5 x6 : Vec Ideal S1024 .f32)
    (x7 : Vec Ideal S1024x1024 .bf16) (x8 x9 x10 x11 x12 : Vec Ideal S1024 .f32)
    (x13 : Vec Ideal S1024x1024 .bf16) (x14 x15 x16 x17 x18 : Vec Ideal S1024 .f32)
    (x19 : Vec Ideal S128x1024 .bf16) (x20 x21 x22 x23 x24 : Vec Ideal S128 .f32) (p : Fin 1024) (q : Fin 128) :
    k0_pay1 (F := Ideal) (k0_pay4 (k0_pay3 (k0_pay2 x0 x1 x2 x3 x4 x5 x6) x7 x8 x9 x10 x11 x12 x13 x14) x15 x16 x17 x18 x19 x20)
        (k0_pay5 x24) (k0_pay6 x21) (k0_pay7 x22) (k0_pay8 x23) (ix2 p q)
      = net (Params.ofArrays x1 x2 x3 x4 x5 x6) (Params.ofArrays x7 x8 x9 x10 x11 x12) (Params.ofArrays x13 x14 x15 x16 x17 x18)
          (Params.ofArrays x19 x20 x21 x22 x23 x24) (fun p k => Ideal.sign (x0 (ix2 p k))) p q := by
  rw [pay1_apply, pay4_apply, pay5_apply, pay6_apply, pay7_apply, pay8_apply]
  simp only [pay3_apply, pay2_apply]
  rfl

end Cert.BinMlp.Kernel

end
-- ==== Proof.KernelBlocks.lean ====
/-
  From the blocks the grid points write to the whole array the region leaves.

  The grid has 32 points.  Point t stages rows 1024·t … 1024·t + 1023 of the input and every parameter array whole
  (their index maps are constant), runs the body, and writes back rows 1024·t … 1024·t + 1023 of a [32768, 128] array.
  The body's stored value is the network over the block's rows, and the network is row local, so what point t writes
  back is block t of ONE function of the arrays the region finds: the network over all 32768 rows.  The 32 blocks tile
  the array, so after the region the array is that function.
-/
import proofs.«105338_j87522843558243_2_alg».proof.Proof.Gen.KernelIdeal.Frame
import proofs.«105338_j87522843558243_2_alg».proof.Proof.KernelPayload
import Idealize.ShloMosaic.Lib.Pipeline.Value

set_option maxRecDepth 16384

noncomputable section

namespace Cert.BinMlp.Blocks

open Cert.KernelIdeal Cert.KernelIdeal.Gen Idealize.ShloMosaic Idealize.ShloMosaic.TcCoe Idealize.SL.Sem
open Idealize.ShloMosaic.ValueIdx Cert.BinMlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The padded [32768, 128] result as one function of the arrays the region finds: the network over every row of the
    input, the parameter arrays read as they stand. -/
def padded (X : S32768x784.Idx → EReal)
    (W1 : S1024x784.Idx → EReal) (b1 g1 be1 mu1 va1 : S1024.Idx → EReal)
    (W2 : S1024x1024.Idx → EReal) (b2 g2 be2 mu2 va2 : S1024.Idx → EReal)
    (W3 : S1024x1024.Idx → EReal) (b3 g3 be3 mu3 va3 : S1024.Idx → EReal)
    (W4 : S128x1024.Idx → EReal) (b4 g4 be4 mu4 va4 : S128.Idx → EReal) : S32768x128.Idx → EReal := fun i =>
  net (Params.ofArrays W1 b1 g1 be1 mu1 va1) (Params.ofArrays W2 b2 g2 be2 mu2 va2) (Params.ofArrays W3 b3 g3 be3 mu3 va3)
    (Params.ofArrays W4 b4 g4 be4 mu4 va4) (fun r k => Ideal.sign (X (ix2 r k))) (i 0) (i 1)

/-- The printed index maps, decided over the 32 grid points: the input's and the output's blocks move down the rows
    with the point, every parameter array's block stays at the origin. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 1) = 0
    ∧ win0_4.index t (0 : Fin 1) = 0
    ∧ win0_5.index t (0 : Fin 1) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 1) = 0
    ∧ win0_10.index t (0 : Fin 1) = 0
    ∧ win0_11.index t (0 : Fin 1) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 1) = 0
    ∧ win0_16.index t (0 : Fin 1) = 0
    ∧ win0_17.index t (0 : Fin 1) = 0
    ∧ win0_18.index t (0 : Fin 1) = 0
    ∧ win0_19.index t (0 : Fin 2) = 0
    ∧ win0_19.index t (1 : Fin 2) = 0
    ∧ win0_20.index t (0 : Fin 1) = 0
    ∧ win0_21.index t (0 : Fin 1) = 0
    ∧ win0_22.index t (0 : Fin 1) = 0
    ∧ win0_23.index t (0 : Fin 1) = 0
    ∧ win0_24.index t (0 : Fin 1) = 0
    ∧ win0_25.index t (0 : Fin 2) = t.val
    ∧ win0_25.index t (1 : Fin 2) = 0 :=
  (by decide +kernel : ∀ t : Fin grid0.N, _)

theorem N32 : cfg0.N = 32 := N_0

/-- Window 1's block at every point is its whole array. -/
theorem blk1 (c : Dev nD) (t : Fin cfg0.N) : (iblk m c 1 t : S1024x784.Idx → EReal) = (V m c main_v1 : S1024x784.Idx → EReal) := by
  funext y
  show (V m c main_v1 : S1024x784.Idx → EReal) (((cfg0.win 1).blk t).view.emb y) = (V m c main_v1 : S1024x784.Idx → EReal) y
  refine congrArg (V m c main_v1 : S1024x784.Idx → EReal) (funext fun a => Fin.ext ?_)
  match a with
    | ⟨0, _⟩ => show win0_1.index t (0 : Fin 2) * 1024 + 1 * (y 0).val = (y 0).val; rw [(idx_facts t).2.2.1]; omega
    | ⟨1, _⟩ => show win0_1.index t (1 : Fin 2) * 784 + 1 * (y 1).val = (y 1).val; rw [(idx_facts t).2.2.2.1]; omega

/-- Window 2's block at every point is its whole array. -/
theorem blk2 (c : Dev nD) (t : Fin cfg0.N) : (iblk m c 2 t : S1024.Idx → EReal) = (V m c main_arg2 : S1024.Idx → EReal) := by
  funext y
  show (V m c main_arg2 : S1024.Idx → EReal) (((cfg0.win 2).blk t).view.emb y) = (V m c main_arg2 : S1024.Idx → EReal) y
  refine congrArg (V m c main_arg2 : S1024.Idx → EReal) (funext fun a => Fin.ext ?_)
  match a with
    | ⟨0, _⟩ => show win0_2.index t (0 : Fin 1) * 1024 + 1 * (y 0).val = (y 0).val; rw [(idx_facts t).2.2.2.2.1]; omega

/-- Window 3's block at every point is its whole array. -/
theorem blk3 (c : Dev nD) (t : Fin cfg0.N) : (iblk m c 3 t : S1024.Idx → EReal) = (V m c main_arg3 : S1024.Idx → EReal) := by
  funext y
  show (V m c main_arg3 : S1024.Idx → EReal) (((cfg0.win 3).blk t).view.emb y) = (V m c main_arg3 : S1024.Idx → EReal) y
  refine congrArg (V m c main_arg3 : S1024.Idx → EReal) (funext fun a => Fin.ext ?_)
  match a with
    | ⟨0, _⟩ => show win0_3.index t (0 : Fin 1) * 1024 + 1 * (y 0).val = (y 0).val; rw [(idx_facts t).2.2.2.2.2.1]; omega

/-- Window 4's block at every point is its whole array. -/
theorem blk4 (c : Dev nD) (t : Fin cfg0.N) : (iblk m c 4 t : S1024.Idx → EReal) = (V m c main_arg4 : S1024.Idx → EReal) := by
  funext y
  show (V m c main_arg4 : S1024.Idx → EReal) (((cfg0.win 4).blk t).view.emb y) = (V m c main_arg4 : S1024.Idx → EReal) y
  refine congrArg (V m c main_arg4 : S1024.Idx → EReal) (funext fun a => Fin.ext ?_)
  match a with
    | ⟨0, _⟩ => show win0_4.index t (0 : Fin 1) * 1024 + 1 * (y 0).val = (y 0).val; rw [(idx_facts t).2.2.2.2.2.2.1]; omega

/-- Window 5's block at every point is its whole array. -/
theorem blk5 (c : Dev nD) (t : Fin cfg0.N) : (iblk m c 5 t : S1024.Idx → EReal) = (V m c main_arg5 : S1024.Idx → EReal) := by
  funext y
  show (V m c main_arg5 : S1024.Idx → EReal) (((cfg0.win 5).blk t).view.emb y) = (V m c main_arg5 : S1024.Idx → EReal) y
  refine congrArg (V m c main_arg5 : S1024.Idx → EReal) (funext fun a => Fin.ext ?_)
  match a with
    | ⟨0, _⟩ => show win0_5.index t (0 : Fin 1) * 1024 + 1 * (y 0).val = (y 0).val; rw [(idx_facts t).2.2.2.2.2.2.2.1]; omega

/-- Window 6's block at every point is its whole array. -/
theorem blk6 (c : Dev nD) (t : Fin cfg0.N) : (iblk m c 6 t : S1024.Idx → EReal) = (V m c main_arg6 : S1024.Idx → EReal) := by
  funext y
  show (V m c main_arg6 : S1024.Idx → EReal) (((cfg0.win 6).blk t).view.emb y) = (V m c main_arg6 : S1024.Idx → EReal) y
  refine congrArg (V m c main_arg6 : S1024.Idx → EReal) (funext fun a => Fin.ext ?_)
  match a with
    | ⟨0, _⟩ => show win0_6.index t (0 : Fin 1) * 1024 + 1 * (y 0).val = (y 0).val; rw [(idx_facts t).2.2.2.2.2.2.2.2.1]; omega

/-- Window 7's block at every point is its whole array. -/
theorem blk7 (c : Dev nD) (t : Fin cfg0.N) : (iblk m c 7 t : S1024x1024.Idx → EReal) = (V m c main_v3 : S1024x1024.Idx → EReal) := by
  funext y
  show (V m c main_v3 : S1024x1024.Idx → EReal) (((cfg0.win 7).blk t).view.emb y) = (V m c main_v3 : S1024x1024.Idx → EReal) y
  refine congrArg (V m c main_v3 : S1024x1024.Idx → EReal) (funext fun a => Fin.ext ?_)
  match a with
    | ⟨0, _⟩ => show win0_7.index t (0 : Fin 2) * 1024 + 1 * (y 0).val = (y 0).val; rw [(idx_facts t).2.2.2.2.2.2.2.2.2.1]; omega
    | ⟨1, _⟩ => show win0_7.index t (1 : Fin 2) * 1024 + 1 * (y 1).val = (y 1).val; rw [(idx_facts t).2.2.2.2.2.2.2.2.2.2.1]; omega

/-- Window 8's block at every point is its whole array. -/
theorem blk8 (c : Dev nD) (t : Fin cfg0.N) : (iblk m c 8 t : S1024.Idx → EReal) = (V m c main_arg8 : S1024.Idx → EReal) := by
  funext y
  show (V m c main_arg8 : S1024.Idx → EReal) (((cfg0.win 8).blk t).view.emb y) = (V m c main_arg8 : S1024.Idx → EReal) y
  refine congrArg (V m c main_arg8 : S1024.Idx → EReal) (funext fun a => Fin.ext ?_)
  match a with
    | ⟨0, _⟩ => show win0_8.index t (0 : Fin 1) * 1024 + 1 * (y 0).val = (y 0).val; rw [(idx_facts t).2.2.2.2.2.2.2.2.2.2.2.1]; omega

/-- Window 9's block at every point is its whole array. -/
theorem blk9 (c : Dev nD) (t : Fin cfg0.N) : (iblk m c 9 t : S1024.Idx → EReal) = (V m c main_arg9 : S1024.Idx → EReal) := by
  funext y
  show (V m c main_arg9 : S1024.Idx → EReal) (((cfg0.win 9).blk t).view.emb y) = (V m c main_arg9 : S1024.Idx → EReal) y
  refine congrArg (V m c main_arg9 : S1024.Idx → EReal) (funext fun a => Fin.ext ?_)
  match a with
    | ⟨0, _⟩ => show win0_9.index t (0 : Fin 1) * 1024 + 1 * (y 0).val = (y 0).val; rw [(idx_facts t).2.2.2.2.2.2.2.2.2.2.2.2.1]; omega

/-- Window 10's block at every point is its whole array. -/
theorem blk10 (c : Dev nD) (t : Fin cfg0.N) : (iblk m c 10 t : S1024.Idx → EReal) = (V m c main_arg10 : S1024.Idx → EReal) := by
  funext y
  show (V m c main_arg10 : S1024.Idx → EReal) (((cfg0.win 10).blk t).view.emb y) = (V m c main_arg10 : S1024.Idx → EReal) y
  refine congrArg (V m c main_arg10 : S1024.Idx → EReal) (funext fun a => Fin.ext ?_)
  match a with
    | ⟨0, _⟩ => show win0_10.index t (0 : Fin 1) * 1024 + 1 * (y 0).val = (y 0).val; rw [(idx_facts t).2.2.2.2.2.2.2.2.2.2.2.2.2.1]; omega

/-- Window 11's block at every point is its whole array. -/
theorem blk11 (c : Dev nD) (t : Fin cfg0.N) : (iblk m c 11 t : S1024.Idx → EReal) = (V m c main_arg11 : S1024.Idx → EReal) := by
  funext y
  show (V m c main_arg11 : S1024.Idx → EReal) (((cfg0.win 11).blk t).view.emb y) = (V m c main_arg11 : S1024.Idx → EReal) y
  refine congrArg (V m c main_arg11 : S1024.Idx → EReal) (funext fun a => Fin.ext ?_)
  match a with
    | ⟨0, _⟩ => show win0_11.index t (0 : Fin 1) * 1024 + 1 * (y 0).val = (y 0).val; rw [(idx_facts t).2.2.2.2.2.2.2.2.2.2.2.2.2.2.1]; omega

/-- Window 12's block at every point is its whole array. -/
theorem blk12 (c : Dev nD) (t : Fin cfg0.N) : (iblk m c 12 t : S1024.Idx → EReal) = (V m c main_arg12 : S1024.Idx → EReal) := by
  funext y
  show (V m c main_arg12 : S1024.Idx → EReal) (((cfg0.win 12).blk t).view.emb y) = (V m c main_arg12 : S1024.Idx → EReal) y
  refine congrArg (V m c main_arg12 : S1024.Idx → EReal) (funext fun a => Fin.ext ?_)
  match a with
    | ⟨0, _⟩ => show win0_12.index t (0 : Fin 1) * 1024 + 1 * (y 0).val = (y 0).val; rw [(idx_facts t).2.2.2.2.2.2.2.2.2.2.2.2.2.2.2.1]; omega

/-- Window 13's block at every point is its whole array. -/
theorem blk13 (c : Dev nD) (t : Fin cfg0.N) : (iblk m c 13 t : S1024x1024.Idx → EReal) = (V m c main_v5 : S1024x1024.Idx → EReal) := by
  funext y
  show (V m c main_v5 : S1024x1024.Idx → EReal) (((cfg0.win 13).blk t).view.emb y) = (V m c main_v5 : S1024x1024.Idx → EReal) y
  refine congrArg (V m c main_v5 : S1024x1024.Idx → EReal) (funext fun a => Fin.ext ?_)
  match a with
    | ⟨0, _⟩ => show win0_13.index t (0 : Fin 2) * 1024 + 1 * (y 0).val = (y 0).val; rw [(idx_facts t).2.2.2.2.2.2.2.2.2.2.2.2.2.2.2.2.1]; omega
    | ⟨1, _⟩ => show win0_13.index t (1 : Fin 2) * 1024 + 1 * (y 1).val = (y 1).val; rw [(idx_facts t).2.2.2.2.2.2.2.2.2.2.2.2.2.2.2.2.2.1]; omega

/-- Window 14's block at every point is its whole array. -/
theorem blk14 (c : Dev nD) (t : Fin cfg0.N) : (iblk m c 14 t : S1024.Idx → EReal) = (V m c main_arg14 : S1024.Idx → EReal) := by
  funext y
  show (V m c main_arg14 : S1024.Idx → EReal) (((cfg0.win 14).blk t).view.emb y) = (V m c main_arg14 : S1024.Idx → EReal) y
  refine congrArg (V m c main_arg14 : S1024.Idx → EReal) (funext fun a => Fin.ext ?_)
  match a with
    | ⟨0, _⟩ => show win0_14.index t (0 : Fin 1) * 1024 + 1 * (y 0).val = (y 0).val; rw [(idx_facts t).2.2.2.2.2.2.2.2.2.2.2.2.2.2.2.2.2.2.1]; omega

/-- Window 15's block at every point is its whole array. -/
theorem blk15 (c : Dev nD) (t : Fin cfg0.N) : (iblk m c 15 t : S1024.Idx → EReal) = (V m c main_arg15 : S1024.Idx → EReal) := by
  funext y
  show (V m c main_arg15 : S1024.Idx → EReal) (((cfg0.win 15).blk t).view.emb y) = (V m c main_arg15 : S1024.Idx → EReal) y
  refine congrArg (V m c main_arg15 : S1024.Idx → EReal) (funext fun a => Fin.ext ?_)
  match a with
    | ⟨0, _⟩ => show win0_15.index t (0 : Fin 1) * 1024 + 1 * (y 0).val = (y 0).val; rw [(idx_facts t).2.2.2.2.2.2.2.2.2.2.2.2.2.2.2.2.2.2.2.1]; omega

/-- Window 16's block at every point is its whole array. -/
theorem blk16 (c : Dev nD) (t : Fin cfg0.N) : (iblk m c 16 t : S1024.Idx → EReal) = (V m c main_arg16 : S1024.Idx → EReal) := by
  funext y
  show (V m c main_arg16 : S1024.Idx → EReal) (((cfg0.win 16).blk t).view.emb y) = (V m c main_arg16 : S1024.Idx → EReal) y
  refine congrArg (V m c main_arg16 : S1024.Idx → EReal) (funext fun a => Fin.ext ?_)
  match a with
    | ⟨0, _⟩ => show win0_16.index t (0 : Fin 1) * 1024 + 1 * (y 0).val = (y 0).val; rw [(idx_facts t).2.2.2.2.2.2.2.2.2.2.2.2.2.2.2.2.2.2.2.2.1]; omega

/-- Window 17's block at every point is its whole array. -/
theorem blk17 (c : Dev nD) (t : Fin cfg0.N) : (iblk m c 17 t : S1024.Idx → EReal) = (V m c main_arg17 : S1024.Idx → EReal) := by
  funext y
  show (V m c main_arg17 : S1024.Idx → EReal) (((cfg0.win 17).blk t).view.emb y) = (V m c main_arg17 : S1024.Idx → EReal) y
  refine congrArg (V m c main_arg17 : S1024.Idx → EReal) (funext fun a => Fin.ext ?_)
  match a with
    | ⟨0, _⟩ => show win0_17.index t (0 : Fin 1) * 1024 + 1 * (y 0).val = (y 0).val; rw [(idx_facts t).2.2.2.2.2.2.2.2.2.2.2.2.2.2.2.2.2.2.2.2.2.1]; omega

/-- Window 18's block at every point is its whole array. -/
theorem blk18 (c : Dev nD) (t : Fin cfg0.N) : (iblk m c 18 t : S1024.Idx → EReal) = (V m c main_arg18 : S1024.Idx → EReal) := by
  funext y
  show (V m c main_arg18 : S1024.Idx → EReal) (((cfg0.win 18).blk t).view.emb y) = (V m c main_arg18 : S1024.Idx → EReal) y
  refine congrArg (V m c main_arg18 : S1024.Idx → EReal) (funext fun a => Fin.ext ?_)
  match a with
    | ⟨0, _⟩ => show win0_18.index t (0 : Fin 1) * 1024 + 1 * (y 0).val = (y 0).val; rw [(idx_facts t).2.2.2.2.2.2.2.2.2.2.2.2.2.2.2.2.2.2.2.2.2.2.1]; omega

/-- Window 19's block at every point is its whole array. -/
theorem blk19 (c : Dev nD) (t : Fin cfg0.N) : (iblk m c 19 t : S128x1024.Idx → EReal) = (V m c main_v8 : S128x1024.Idx → EReal) := by
  funext y
  show (V m c main_v8 : S128x1024.Idx → EReal) (((cfg0.win 19).blk t).view.emb y) = (V m c main_v8 : S128x1024.Idx → EReal) y
  refine congrArg (V m c main_v8 : S128x1024.Idx → EReal) (funext fun a => Fin.ext ?_)
  match a with
    | ⟨0, _⟩ => show win0_19.index t (0 : Fin 2) * 128 + 1 * (y 0).val = (y 0).val; rw [(idx_facts t).2.2.2.2.2.2.2.2.2.2.2.2.2.2.2.2.2.2.2.2.2.2.2.1]; omega
    | ⟨1, _⟩ => show win0_19.index t (1 : Fin 2) * 1024 + 1 * (y 1).val = (y 1).val; rw [(idx_facts t).2.2.2.2.2.2.2.2.2.2.2.2.2.2.2.2.2.2.2.2.2.2.2.2.1]; omega

/-- Window 20's block at every point is its whole array. -/
theorem blk20 (c : Dev nD) (t : Fin cfg0.N) : (iblk m c 20 t : S128.Idx → EReal) = (V m c main_v9 : S128.Idx → EReal) := by
  funext y
  show (V m c main_v9 : S128.Idx → EReal) (((cfg0.win 20).blk t).view.emb y) = (V m c main_v9 : S128.Idx → EReal) y
  refine congrArg (V m c main_v9 : S128.Idx → EReal) (funext fun a => Fin.ext ?_)
  match a with
    | ⟨0, _⟩ => show win0_20.index t (0 : Fin 1) * 128 + 1 * (y 0).val = (y 0).val; rw [(idx_facts t).2.2.2.2.2.2.2.2.2.2.2.2.2.2.2.2.2.2.2.2.2.2.2.2.2.1]; omega

/-- Window 21's block at every point is its whole array. -/
theorem blk21 (c : Dev nD) (t : Fin cfg0.N) : (iblk m c 21 t : S128.Idx → EReal) = (V m c main_v10 : S128.Idx → EReal) := by
  funext y
  show (V m c main_v10 : S128.Idx → EReal) (((cfg0.win 21).blk t).view.emb y) = (V m c main_v10 : S128.Idx → EReal) y
  refine congrArg (V m c main_v10 : S128.Idx → EReal) (funext fun a => Fin.ext ?_)
  match a with
    | ⟨0, _⟩ => show win0_21.index t (0 : Fin 1) * 128 + 1 * (y 0).val = (y 0).val; rw [(idx_facts t).2.2.2.2.2.2.2.2.2.2.2.2.2.2.2.2.2.2.2.2.2.2.2.2.2.2.1]; omega

/-- Window 22's block at every point is its whole array. -/
theorem blk22 (c : Dev nD) (t : Fin cfg0.N) : (iblk m c 22 t : S128.Idx → EReal) = (V m c main_v11 : S128.Idx → EReal) := by
  funext y
  show (V m c main_v11 : S128.Idx → EReal) (((cfg0.win 22).blk t).view.emb y) = (V m c main_v11 : S128.Idx → EReal) y
  refine congrArg (V m c main_v11 : S128.Idx → EReal) (funext fun a => Fin.ext ?_)
  match a with
    | ⟨0, _⟩ => show win0_22.index t (0 : Fin 1) * 128 + 1 * (y 0).val = (y 0).val; rw [(idx_facts t).2.2.2.2.2.2.2.2.2.2.2.2.2.2.2.2.2.2.2.2.2.2.2.2.2.2.2.1]; omega

/-- Window 23's block at every point is its whole array. -/
theorem blk23 (c : Dev nD) (t : Fin cfg0.N) : (iblk m c 23 t : S128.Idx → EReal) = (V m c main_v12 : S128.Idx → EReal) := by
  funext y
  show (V m c main_v12 : S128.Idx → EReal) (((cfg0.win 23).blk t).view.emb y) = (V m c main_v12 : S128.Idx → EReal) y
  refine congrArg (V m c main_v12 : S128.Idx → EReal) (funext fun a => Fin.ext ?_)
  match a with
    | ⟨0, _⟩ => show win0_23.index t (0 : Fin 1) * 128 + 1 * (y 0).val = (y 0).val; rw [(idx_facts t).2.2.2.2.2.2.2.2.2.2.2.2.2.2.2.2.2.2.2.2.2.2.2.2.2.2.2.2.1]; omega

/-- Window 24's block at every point is its whole array. -/
theorem blk24 (c : Dev nD) (t : Fin cfg0.N) : (iblk m c 24 t : S128.Idx → EReal) = (V m c main_v13 : S128.Idx → EReal) := by
  funext y
  show (V m c main_v13 : S128.Idx → EReal) (((cfg0.win 24).blk t).view.emb y) = (V m c main_v13 : S128.Idx → EReal) y
  refine congrArg (V m c main_v13 : S128.Idx → EReal) (funext fun a => Fin.ext ?_)
  match a with
    | ⟨0, _⟩ => show win0_24.index t (0 : Fin 1) * 128 + 1 * (y 0).val = (y 0).val; rw [(idx_facts t).2.2.2.2.2.2.2.2.2.2.2.2.2.2.2.2.2.2.2.2.2.2.2.2.2.2.2.2.2.1]; omega

/-- The input window's block at point t holds rows 1024·t … of the input. -/
theorem blk0 (c : Dev nD) (t : Fin cfg0.N) (p : Fin 1024) (k : Fin 784) (r : Fin 32768) (hr : r.val = 1024 * t.val + p.val) :
    (iblk m c 0 t : S1024x784.Idx → EReal) (ix2 p k) = (V m c main_arg0 : S32768x784.Idx → EReal) (ix2 r k) := by
  show (V m c main_arg0 : S32768x784.Idx → EReal) (((cfg0.win 0).blk t).view.emb (ix2 p k)) = (V m c main_arg0 : S32768x784.Idx → EReal) (ix2 r k)
  refine congrArg (V m c main_arg0 : S32768x784.Idx → EReal) (funext fun a => Fin.ext ?_)
  match a with
    | ⟨0, _⟩ => show win0_0.index t (0 : Fin 2) * 1024 + 1 * p.val = r.val; rw [(idx_facts t).1, hr]; omega
    | ⟨1, _⟩ => show win0_0.index t (1 : Fin 2) * 784 + 1 * k.val = k.val; rw [(idx_facts t).2.1]; omega

/-- The output window's block at point t sits at rows 1024·t … of its array, all 128 columns. -/
theorem emb25 (t : Fin cfg0.N) (p : Fin 1024) (q : Fin 128) (r : Fin 32768) (hr : r.val = 1024 * t.val + p.val) :
    (((cfg0.win 25).blk t).view.emb (ix2 p q) : S32768x128.Idx) = ix2 r q := by
  funext a
  apply Fin.ext
  match a with
    | ⟨0, _⟩ => show win0_25.index t (0 : Fin 2) * 1024 + 1 * p.val = r.val; rw [(idx_facts t).2.2.2.2.2.2.2.2.2.2.2.2.2.2.2.2.2.2.2.2.2.2.2.2.2.2.2.2.2.2.1, hr]; omega
    | ⟨1, _⟩ => show win0_25.index t (1 : Fin 2) * 128 + 1 * q.val = q.val; rw [(idx_facts t).2.2.2.2.2.2.2.2.2.2.2.2.2.2.2.2.2.2.2.2.2.2.2.2.2.2.2.2.2.2.2]; omega

/-- The region's array arguments, as the region finds them, in the body's order. -/
abbrev paddedV (c : Dev nD) : S32768x128.Idx → EReal :=
  padded (V m c main_arg0 : S32768x784.Idx → EReal)
    (V m c main_v1 : S1024x784.Idx → EReal)
    (V m c main_arg2 : S1024.Idx → EReal)
    (V m c main_arg3 : S1024.Idx → EReal)
    (V m c main_arg4 : S1024.Idx → EReal)
    (V m c main_arg5 : S1024.Idx → EReal)
    (V m c main_arg6 : S1024.Idx → EReal)
    (V m c main_v3 : S1024x1024.Idx → EReal)
    (V m c main_arg8 : S1024.Idx → EReal)
    (V m c main_arg9 : S1024.Idx → EReal)
    (V m c main_arg10 : S1024.Idx → EReal)
    (V m c main_arg11 : S1024.Idx → EReal)
    (V m c main_arg12 : S1024.Idx → EReal)
    (V m c main_v5 : S1024x1024.Idx → EReal)
    (V m c main_arg14 : S1024.Idx → EReal)
    (V m c main_arg15 : S1024.Idx → EReal)
    (V m c main_arg16 : S1024.Idx → EReal)
    (V m c main_arg17 : S1024.Idx → EReal)
    (V m c main_arg18 : S1024.Idx → EReal)
    (V m c main_v8 : S128x1024.Idx → EReal)
    (V m c main_v9 : S128.Idx → EReal)
    (V m c main_v10 : S128.Idx → EReal)
    (V m c main_v11 : S128.Idx → EReal)
    (V m c main_v12 : S128.Idx → EReal)
    (V m c main_v13 : S128.Idx → EReal)

/-- WHAT POINT t WRITES BACK is block t of the padded result. -/
theorem flushed_eq (c : Dev nD) (t : Fin cfg0.N) :
    (dats m 0 c).flushed 25 t = ((cfg0.win 25).blk t).view.read (Elt Ideal) (paddedV m c) := by
  show (cfg0.win 25).cut (grid0.coords t) ((dats m 0 c).after 25 t) = _
  rw [after0_25]
  unfold out0_25
  rw [View.canon_unit_zero hz2]
  simp only [View.ld_unit_zero (S := S1024x784) hz2, View.ld_unit_zero (S := S1024x1024) hz2, View.ld_unit_zero (S := S128x1024) hz2,
    View.ld_unit_zero (S := S1024) hz1, View.ld_unit_zero (S := S128) hz1]
  funext y
  obtain ⟨p, q, rfl⟩ : ∃ (p : Fin 1024) (q : Fin 128), y = ix2 p q := ⟨y 0, y 1, eq_ix2 y⟩
  have hN := N32
  have ht : t.val < 32 := by have := t.isLt; omega
  have hrow : 1024 * t.val + p.val < 32768 := by have := p.isLt; omega
  refine (Kernel.body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p q).trans ?_
  show _ = paddedV m c (((cfg0.win 25).blk t).view.emb (ix2 p q))
  rw [emb25 t p q ⟨1024 * t.val + p.val, hrow⟩ rfl, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t]
  have e0 : (fun (p : Fin 1024) (k : Fin 784) => Ideal.sign ((iblk m c 0 t : S1024x784.Idx → EReal) (ix2 p k)))
      = fun (p : Fin 1024) (k : Fin 784) => Ideal.sign ((V m c main_arg0 : S32768x784.Idx → EReal) (ix2 (⟨1024 * t.val + p.val, by have := p.isLt; omega⟩ : Fin 32768) k)) :=
    funext fun p => funext fun k => congrArg Ideal.sign (blk0 m c t p k _ rfl)
  rw [e0]
  rfl

/-- The 32 blocks tile the array: row r lies in the block of point r / 1024. -/
theorem cover (i : S32768x128.Idx) : ∃ t : Fin cfg0.N, (cfg0.win 25).flush t = true ∧ i ∈ ((cfg0.win 25).blk t).view.set := by
  have hN := N32
  have h0 : (i 0).val < 32768 := (i 0).isLt
  have h1 : (i 1).val < 128 := (i 1).isLt
  let t : Fin cfg0.N := ⟨(i 0).val / 1024, by omega⟩
  refine ⟨t, flush0_25 t, ?_⟩
  show i ∈ ((View.whole main_v14).slice (win0_25.rect t)).set
  rw [View.set_slice_whole, Rect.mem_set_unit]
  intro a
  match a with
    | ⟨0, _⟩ =>
      show win0_25.index t (0 : Fin 2) * 1024 ≤ (i 0).val ∧ (i 0).val < win0_25.index t (0 : Fin 2) * 1024 + 1024
      rw [(idx_facts t).2.2.2.2.2.2.2.2.2.2.2.2.2.2.2.2.2.2.2.2.2.2.2.2.2.2.2.2.2.2.1]; show (i 0).val / 1024 * 1024 ≤ (i 0).val ∧ (i 0).val < (i 0).val / 1024 * 1024 + 1024; omega
    | ⟨1, _⟩ =>
      show win0_25.index t (1 : Fin 2) * 128 ≤ (i 1).val ∧ (i 1).val < win0_25.index t (1 : Fin 2) * 128 + 128
      rw [(idx_facts t).2.2.2.2.2.2.2.2.2.2.2.2.2.2.2.2.2.2.2.2.2.2.2.2.2.2.2.2.2.2.2]; omega

/-- THE ARRAY the region leaves is the padded result. -/
theorem final (c : Dev nD) : (dats m 0 c).arrAt 25 cfg0.N = paddedV m c :=
  (dats m 0 c).arrAt_eq_of_cover 25 (paddedV m c) (fun t _ => flushed_eq m c t) cover

end Cert.BinMlp.Blocks

end
-- ==== Proof.LibPadHigh.lean ====
/-
  A two-dimensional array padded at the high end of one axis, read at an index given by its coordinates.

  Padding an [a, b] array with extra rows after the last row (no padding in front, none between entries) gives an
  [a', b] array whose entry at row i and column q is the operand's entry (i, q) when i < a, and the padding value
  otherwise. Padding with extra columns after the last column is the same statement with the roles of the two
  coordinates exchanged. The integer zero converted to a float is the zero of the extended reals, so a pad whose
  padding value is that conversion pads with zeros.
-/
import Idealize.ShloMosaic.Lib.KernelVsHost
import Idealize.ShloMosaic.Lib.ValueLayout

noncomputable section

namespace Cert.LibPadHigh

open Idealize.ShloMosaic Idealize.ShloMosaic.ValueIdx

variable {α : Type}

/-- Extra rows after the last: row i of the padded array is row i of the operand when i < a, else the padding value. -/
theorem pad_rows_high_apply {a a' b e : ℕ} (x : (⟨2, ![a, b]⟩ : Shape).Idx → α) {u : Shape} (v : u.Idx → α)
    (hp : (⟨2, ![a, b]⟩ : Shape).Pads (![0, 0] : Fin 2 → Nat) ![e, 0] ![0, 0] ⟨2, ![a', b]⟩) (hu : 0 < u.numel)
    (i : Fin a') (q : Fin b) :
    pad ⟨2, ![a', b]⟩ (![0, 0] : Fin 2 → Nat) ![e, 0] ![0, 0] x v hp hu (ix2 i q)
      = if h : i.val < a then x (ix2 ⟨i.val, h⟩ q) else v (Shape.Idx.first hu) := by
  by_cases h : i.val < a
  · rw [dif_pos h]
    refine pad_apply_of_inside _ _ _ x v hp hu (ix2 i q) (ix2 ⟨i.val, h⟩ q) fun ax => ?_
    match ax with
    | ⟨0, _⟩ => show i.val = 0 + i.val * (0 + 1); omega
    | ⟨1, _⟩ => show q.val = 0 + q.val * (0 + 1); omega
  · rw [dif_neg h]
    refine pad_apply_of_not_inside _ _ _ x v hp hu (ix2 i q) (0 : Fin 2) fun hh => h ?_
    have h3 : (i.val - 0) / (0 + 1) < a := hh.2.2
    omega

/-- Extra columns after the last: column i of the padded array is column i of the operand when i < b, else the
    padding value. -/
theorem pad_cols_high_apply {a b b' e : ℕ} (x : (⟨2, ![a, b]⟩ : Shape).Idx → α) {u : Shape} (v : u.Idx → α)
    (hp : (⟨2, ![a, b]⟩ : Shape).Pads (![0, 0] : Fin 2 → Nat) ![0, e] ![0, 0] ⟨2, ![a, b']⟩) (hu : 0 < u.numel)
    (p : Fin a) (i : Fin b') :
    pad ⟨2, ![a, b']⟩ (![0, 0] : Fin 2 → Nat) ![0, e] ![0, 0] x v hp hu (ix2 p i)
      = if h : i.val < b then x (ix2 p ⟨i.val, h⟩) else v (Shape.Idx.first hu) := by
  by_cases h : i.val < b
  · rw [dif_pos h]
    refine pad_apply_of_inside _ _ _ x v hp hu (ix2 p i) (ix2 p ⟨i.val, h⟩) fun ax => ?_
    match ax with
    | ⟨0, _⟩ => show p.val = 0 + p.val * (0 + 1); omega
    | ⟨1, _⟩ => show i.val = 0 + i.val * (0 + 1); omega
  · rw [dif_neg h]
    refine pad_apply_of_not_inside _ _ _ x v hp hu (ix2 p i) (1 : Fin 2) fun hh => h ?_
    have h3 : (i.val - 0) / (0 + 1) < b := hh.2.2
    omega

/-- The integer zero word, converted to a float at the exact values, is zero at every index. -/
theorem sitofp_constantI_zero_apply {s : Shape} {φ : FTy} (j : s.Idx) :
    (sitofp φ (constantI s 32 0#32) : FVec Ideal s φ) j = 0 := by
  show ((((0#32 : BitVec 32).toInt : ℤ) : ℝ) : EReal) = 0
  simp

end Cert.LibPadHigh

end
-- ==== Proof.KernelHost.lean ====
/-
  The kernel program around its one region: the host operations before it, the region's array, the slice after it.

  Before the region the host binarizes the four weight matrices (the sign of every entry; the change of float format
  after it is the identity on the extended reals) and pads layer 4's matrix and five vectors from 10 to 128 rows with
  zeros.  After the region it keeps columns 0 … 9 of the [32768, 128] array.  Column q < 10 of the padded network reads
  only row q of the padded layer-4 parameters, which is row q of the unpadded ones, so the kept columns are the
  network of the argument arrays: the result function the reference also computes.
-/
import proofs.«105338_j87522843558243_2_alg».proof.Proof.KernelBlocks
import proofs.«105338_j87522843558243_2_alg».proof.Proof.LibPadHigh
import Idealize.ShloMosaic.Lib.StableHlo.Run
import Idealize.ShloMosaic.Lib.KernelVsHost

set_option maxRecDepth 16384

noncomputable section

namespace Cert.BinMlp.Host

open Cert.KernelIdeal Cert.KernelIdeal.Gen Idealize.ShloMosaic Idealize.ShloMosaic.TcCoe Idealize.SL.Sem
open Idealize.ShloMosaic.ValueIdx Idealize.ShloMosaic.StableHlo Cert.BinMlp
open Idealize.ShloMosaic.Pipeline (Dat)

variable (m : (ℓ : Loc nD τ sig) → Buf (Elt Ideal) ℓ) (ρ : Dev nD → PrngReg)

/-! ## What the region finds in the buffers the host wrote -/

/-- The region finds the binarized weights of `main_arg1` in `main_v1`. -/
theorem V_main_v1 (c : Dev nD) : (V m c main_v1 : S1024x784.Idx → EReal) = fun i => Ideal.sign ((m ((c.tc : Thread nD τ).loc main_arg1) : S1024x784.Idx → EReal) i) := by
  have e : (V m c main_v1 : S1024x784.Idx → EReal) = truncf .bf16 (Host.sign (F := Ideal) (m ((c.tc : Thread nD τ).loc main_arg1) : S1024x784.Idx → EReal)) bitsLt_bf16_f32 := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]; rfl

/-- The region finds the binarized weights of `main_arg7` in `main_v3`. -/
theorem V_main_v3 (c : Dev nD) : (V m c main_v3 : S1024x1024.Idx → EReal) = fun i => Ideal.sign ((m ((c.tc : Thread nD τ).loc main_arg7) : S1024x1024.Idx → EReal) i) := by
  have e : (V m c main_v3 : S1024x1024.Idx → EReal) = truncf .bf16 (Host.sign (F := Ideal) (m ((c.tc : Thread nD τ).loc main_arg7) : S1024x1024.Idx → EReal)) bitsLt_bf16_f32 := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]; rfl

/-- The region finds the binarized weights of `main_arg13` in `main_v5`. -/
theorem V_main_v5 (c : Dev nD) : (V m c main_v5 : S1024x1024.Idx → EReal) = fun i => Ideal.sign ((m ((c.tc : Thread nD τ).loc main_arg13) : S1024x1024.Idx → EReal) i) := by
  have e : (V m c main_v5 : S1024x1024.Idx → EReal) = truncf .bf16 (Host.sign (F := Ideal) (m ((c.tc : Thread nD τ).loc main_arg13) : S1024x1024.Idx → EReal)) bitsLt_bf16_f32 := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]; rfl

/-- A [10] vector padded with 118 entries behind it reads, at q < 10, the vector at q. -/
theorem pad1_apply {α : Type} (x : (⟨1, ![10]⟩ : Shape).Idx → α) {u : Shape} (v : u.Idx → α)
    (hp : (⟨1, ![10]⟩ : Shape).Pads (![0] : Fin 1 → Nat) ![118] ![0] ⟨1, ![128]⟩) (hu : 0 < u.numel) (q : Fin 10) (q' : Fin 128)
    (hq : q'.val = q.val) :
    pad ⟨1, ![128]⟩ (![0] : Fin 1 → Nat) ![118] ![0] x v hp hu (ix1 q') = x (ix1 q) :=
  pad_apply_of_inside _ _ _ x v hp hu (ix1 q') (ix1 q) fun a => by
    match a with
    | ⟨0, _⟩ => show q'.val = 0 + q.val * (0 + 1); omega

/-- The region finds layer 4's binarized weights, padded to 128 rows, in `main_v8`: row q < 10 is row q of the signs. -/
theorem V_main_v8 (c : Dev nD) (q : Fin 10) (q' : Fin 128) (hq : q'.val = q.val) (k : Fin 1024) :
    (V m c main_v8 : S128x1024.Idx → EReal) (ix2 q' k) = Ideal.sign ((m ((c.tc : Thread nD τ).loc main_arg19) : S10x1024.Idx → EReal) (ix2 q k)) := by
  have e : (V m c main_v8 : S128x1024.Idx → EReal)
      = pad S128x1024 ![0, 0] ![118, 0] ![0, 0] (truncf .bf16 (Host.sign (F := Ideal) (m ((c.tc : Thread nD τ).loc main_arg19) : S10x1024.Idx → EReal)) bitsLt_bf16_f32)
          (sitofp .bf16 (constantI S_ 32 0#32)) pads_S10x1024_S128x1024_01180_000 h_S_ := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]
  refine (LibPadHigh.pad_rows_high_apply _ _ pads_S10x1024_S128x1024_01180_000 h_S_ q' k).trans ?_
  rw [dif_pos (show q'.val < 10 by have := q.isLt; omega)]
  have : (⟨q'.val, by have := q.isLt; omega⟩ : Fin 10) = q := Fin.ext hq
  rw [this]; rfl

/-- The region finds `main_arg20`, padded to 128 entries, in `main_v9`: entry q < 10 is the vector's. -/
theorem V_main_v9 (c : Dev nD) (q : Fin 10) (q' : Fin 128) (hq : q'.val = q.val) :
    (V m c main_v9 : S128.Idx → EReal) (ix1 q') = (m ((c.tc : Thread nD τ).loc main_arg20) : S10.Idx → EReal) (ix1 q) := by
  have e : (V m c main_v9 : S128.Idx → EReal)
      = @pad S10 EReal S128 ![0] ![118] ![0] (m ((c.tc : Thread nD τ).loc main_arg20) : S10.Idx → EReal) S_
          (sitofp (F := Ideal) .f32 (constantI S_ 32 0#32)) pads_S10_S128_01180 h_S_ := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]
  exact pad1_apply _ _ pads_S10_S128_01180 h_S_ q q' hq

/-- The region finds `main_arg21`, padded to 128 entries, in `main_v10`: entry q < 10 is the vector's. -/
theorem V_main_v10 (c : Dev nD) (q : Fin 10) (q' : Fin 128) (hq : q'.val = q.val) :
    (V m c main_v10 : S128.Idx → EReal) (ix1 q') = (m ((c.tc : Thread nD τ).loc main_arg21) : S10.Idx → EReal) (ix1 q) := by
  have e : (V m c main_v10 : S128.Idx → EReal)
      = @pad S10 EReal S128 ![0] ![118] ![0] (m ((c.tc : Thread nD τ).loc main_arg21) : S10.Idx → EReal) S_
          (sitofp (F := Ideal) .f32 (constantI S_ 32 0#32)) pads_S10_S128_01180 h_S_ := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]
  exact pad1_apply _ _ pads_S10_S128_01180 h_S_ q q' hq

/-- The region finds `main_arg22`, padded to 128 entries, in `main_v11`: entry q < 10 is the vector's. -/
theorem V_main_v11 (c : Dev nD) (q : Fin 10) (q' : Fin 128) (hq : q'.val = q.val) :
    (V m c main_v11 : S128.Idx → EReal) (ix1 q') = (m ((c.tc : Thread nD τ).loc main_arg22) : S10.Idx → EReal) (ix1 q) := by
  have e : (V m c main_v11 : S128.Idx → EReal)
      = @pad S10 EReal S128 ![0] ![118] ![0] (m ((c.tc : Thread nD τ).loc main_arg22) : S10.Idx → EReal) S_
          (sitofp (F := Ideal) .f32 (constantI S_ 32 0#32)) pads_S10_S128_01180 h_S_ := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]
  exact pad1_apply _ _ pads_S10_S128_01180 h_S_ q q' hq

/-- The region finds `main_arg23`, padded to 128 entries, in `main_v12`: entry q < 10 is the vector's. -/
theorem V_main_v12 (c : Dev nD) (q : Fin 10) (q' : Fin 128) (hq : q'.val = q.val) :
    (V m c main_v12 : S128.Idx → EReal) (ix1 q') = (m ((c.tc : Thread nD τ).loc main_arg23) : S10.Idx → EReal) (ix1 q) := by
  have e : (V m c main_v12 : S128.Idx → EReal)
      = @pad S10 EReal S128 ![0] ![118] ![0] (m ((c.tc : Thread nD τ).loc main_arg23) : S10.Idx → EReal) S_
          (sitofp (F := Ideal) .f32 (constantI S_ 32 0#32)) pads_S10_S128_01180 h_S_ := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]
  exact pad1_apply _ _ pads_S10_S128_01180 h_S_ q q' hq

/-- The region finds `main_arg24`, padded to 128 entries, in `main_v13`: entry q < 10 is the vector's. -/
theorem V_main_v13 (c : Dev nD) (q : Fin 10) (q' : Fin 128) (hq : q'.val = q.val) :
    (V m c main_v13 : S128.Idx → EReal) (ix1 q') = (m ((c.tc : Thread nD τ).loc main_arg24) : S10.Idx → EReal) (ix1 q) := by
  have e : (V m c main_v13 : S128.Idx → EReal)
      = @pad S10 EReal S128 ![0] ![118] ![0] (m ((c.tc : Thread nD τ).loc main_arg24) : S10.Idx → EReal) S_
          (sitofp (F := Ideal) .f32 (constantI S_ 32 0#32)) pads_S10_S128_01180 h_S_ := by
    dsimp only [V, V0]
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
    after_results_simp <;> rfl
  rw [e]
  exact pad1_apply _ _ pads_S10_S128_01180 h_S_ q q' hq

/-! ## The padded network's first ten columns are the result -/

/-- Over any arrays: if the region's weight blocks hold the signs of the argument matrices and its padded layer-4
    parameters agree with the unpadded ones on rows 0 … 9, the padded network at column q < 10 is the result there. -/
theorem padded_eq_result (X X' : S32768x784.Idx → EReal)
    (W1 W1' : S1024x784.Idx → EReal) (b1 b1' g1 g1' be1 be1' mu1 mu1' va1 va1' : S1024.Idx → EReal)
    (W2 W2' : S1024x1024.Idx → EReal) (b2 b2' g2 g2' be2 be2' mu2 mu2' va2 va2' : S1024.Idx → EReal)
    (W3 W3' : S1024x1024.Idx → EReal) (b3 b3' g3 g3' be3 be3' mu3 mu3' va3 va3' : S1024.Idx → EReal)
    (W4 : S128x1024.Idx → EReal) (b4 g4 be4 mu4 va4 : S128.Idx → EReal)
    (W4' : S10x1024.Idx → EReal) (b4' g4' be4' mu4' va4' : S10.Idx → EReal)
    (hX : X = X')
    (h1 : W1 = fun i => Ideal.sign (W1' i)) (hb1 : b1 = b1') (hg1 : g1 = g1') (hbe1 : be1 = be1') (hmu1 : mu1 = mu1') (hva1 : va1 = va1')
    (h2 : W2 = fun i => Ideal.sign (W2' i)) (hb2 : b2 = b2') (hg2 : g2 = g2') (hbe2 : be2 = be2') (hmu2 : mu2 = mu2') (hva2 : va2 = va2')
    (h3 : W3 = fun i => Ideal.sign (W3' i)) (hb3 : b3 = b3') (hg3 : g3 = g3') (hbe3 : be3 = be3') (hmu3 : mu3 = mu3') (hva3 : va3 = va3')
    (r : Fin 32768) (q : Fin 10) (q' : Fin 128)
    (hW : ∀ k, W4 (ix2 q' k) = Ideal.sign (W4' (ix2 q k))) (hb : b4 (ix1 q') = b4' (ix1 q)) (hg : g4 (ix1 q') = g4' (ix1 q))
    (hbe : be4 (ix1 q') = be4' (ix1 q)) (hmu : mu4 (ix1 q') = mu4' (ix1 q)) (hva : va4 (ix1 q') = va4' (ix1 q)) :
    Blocks.padded X W1 b1 g1 be1 mu1 va1 W2 b2 g2 be2 mu2 va2 W3 b3 g3 be3 mu3 va3 W4 b4 g4 be4 mu4 va4 (ix2 r q')
      = result X' W1' b1' g1' be1' mu1' va1' W2' b2' g2' be2' mu2' va2' W3' b3' g3' be3' mu3' va3' W4' b4' g4' be4' mu4' va4' (ix2 r q) := by
  subst hX h1 h2 h3 hb1 hg1 hbe1 hmu1 hva1 hb2 hg2 hbe2 hmu2 hva2 hb3 hg3 hbe3 hmu3 hva3
  unfold Blocks.padded result Params.ofSigned net
  exact layer_congr_row (Params.ofArrays W4 b4 g4 be4 mu4 va4) (Params.ofArrays (fun i => Ideal.sign (W4' i)) b4' g4' be4' mu4' va4') _ r q' q
    hW hb hg hbe hmu hva

/-! ## The slice after the region, and the run -/

/-- The kernel program's result as a function of its argument arrays as launched. -/
def kres (c : Dev nD) : Buf (Elt Ideal) ((c.tc : Thread nD τ).loc main_v15) :=
  result (m ((c.tc : Thread nD τ).loc main_arg0) : S32768x784.Idx → EReal)
    (m ((c.tc : Thread nD τ).loc main_arg1) : S1024x784.Idx → EReal)
    (m ((c.tc : Thread nD τ).loc main_arg2) : S1024.Idx → EReal)
    (m ((c.tc : Thread nD τ).loc main_arg3) : S1024.Idx → EReal)
    (m ((c.tc : Thread nD τ).loc main_arg4) : S1024.Idx → EReal)
    (m ((c.tc : Thread nD τ).loc main_arg5) : S1024.Idx → EReal)
    (m ((c.tc : Thread nD τ).loc main_arg6) : S1024.Idx → EReal)
    (m ((c.tc : Thread nD τ).loc main_arg7) : S1024x1024.Idx → EReal)
    (m ((c.tc : Thread nD τ).loc main_arg8) : S1024.Idx → EReal)
    (m ((c.tc : Thread nD τ).loc main_arg9) : S1024.Idx → EReal)
    (m ((c.tc : Thread nD τ).loc main_arg10) : S1024.Idx → EReal)
    (m ((c.tc : Thread nD τ).loc main_arg11) : S1024.Idx → EReal)
    (m ((c.tc : Thread nD τ).loc main_arg12) : S1024.Idx → EReal)
    (m ((c.tc : Thread nD τ).loc main_arg13) : S1024x1024.Idx → EReal)
    (m ((c.tc : Thread nD τ).loc main_arg14) : S1024.Idx → EReal)
    (m ((c.tc : Thread nD τ).loc main_arg15) : S1024.Idx → EReal)
    (m ((c.tc : Thread nD τ).loc main_arg16) : S1024.Idx → EReal)
    (m ((c.tc : Thread nD τ).loc main_arg17) : S1024.Idx → EReal)
    (m ((c.tc : Thread nD τ).loc main_arg18) : S1024.Idx → EReal)
    (m ((c.tc : Thread nD τ).loc main_arg19) : S10x1024.Idx → EReal)
    (m ((c.tc : Thread nD τ).loc main_arg20) : S10.Idx → EReal)
    (m ((c.tc : Thread nD τ).loc main_arg21) : S10.Idx → EReal)
    (m ((c.tc : Thread nD τ).loc main_arg22) : S10.Idx → EReal)
    (m ((c.tc : Thread nD τ).loc main_arg23) : S10.Idx → EReal)
    (m ((c.tc : Thread nD τ).loc main_arg24) : S10.Idx → EReal)

/-- After the region and the slice, the result buffer holds the result function of the arguments. -/
theorem tail_eq (c : Dev nD) : Pipeline.afterTail₀ cfgs (dats m) 0 (V0 m) [hostOps1] c main_v15 = kres m c := by
  have e : (Pipeline.afterTail₀ cfgs (dats m) 0 (V0 m) [hostOps1] c main_v15 : S32768x10.Idx → EReal)
      = extractStridedSlice S32768x10 ![0, 0] (Blocks.paddedV m c) slices_S32768x128_S32768x10_0_0 := by
    unfold Pipeline.afterTail₀
    show StableHlo.after hostOps1 _ (Proc.devRef .tc main_v15) = _
    after_results
    have hA : (Pipeline.withArrays spec0 c (V0 m c) (fun w => (dats m 0 c).arrAt w cfg0.N) (Proc.devRef .tc main_v14) : S32768x128.Idx → EReal)
        = Blocks.paddedV m c :=
      (Pipeline.withArrays_arr spec0 launch0.win.arr_inj c (V0 m c) (fun w => (dats m 0 c).arrAt w cfg0.N) 25).trans (Blocks.final m c)
    rw [hA]
  refine e.trans (funext fun i => ?_)
  obtain ⟨r, q, rfl⟩ : ∃ (r : Fin 32768) (q : Fin 10), i = ix2 r q := ⟨i 0, i 1, eq_ix2 i⟩
  have hq : q.val < 128 := by have := q.isLt; omega
  refine (extractStridedSlice_apply _ (Blocks.paddedV m c) slices_S32768x128_S32768x10_0_0 (ix2 r q) (ix2 r ⟨q.val, hq⟩) fun a => ?_).trans ?_
  · match a with
    | ⟨0, _⟩ => exact (Nat.zero_add _).symm
    | ⟨1, _⟩ => exact (Nat.zero_add _).symm
  · exact padded_eq_result _ _ _ _ _ _ _ _ _ _ _ _ _ _ _ _ _ _ _ _ _ _ _ _ _ _ _ _ _ _ _ _ _ _ _ _ _ _ _ _ _ _ _ _ _ _ _ _ _ _
      (V_main_arg0 m c) (V_main_v1 m c) (V_main_arg2 m c) (V_main_arg3 m c) (V_main_arg4 m c) (V_main_arg5 m c) (V_main_arg6 m c) (V_main_v3 m c) (V_main_arg8 m c) (V_main_arg9 m c) (V_main_arg10 m c) (V_main_arg11 m c) (V_main_arg12 m c) (V_main_v5 m c) (V_main_arg14 m c) (V_main_arg15 m c) (V_main_arg16 m c) (V_main_arg17 m c) (V_main_arg18 m c)
      r q ⟨q.val, hq⟩
      (fun k => V_main_v8 m c q ⟨q.val, hq⟩ rfl k) (V_main_v9 m c q ⟨q.val, hq⟩ rfl) (V_main_v10 m c q ⟨q.val, hq⟩ rfl)
      (V_main_v11 m c q ⟨q.val, hq⟩ rfl) (V_main_v12 m c q ⟨q.val, hq⟩ rfl) (V_main_v13 m c q ⟨q.val, hq⟩ rfl)

set_option maxHeartbeats 4000000 in
/-- THE KERNEL PROGRAM'S RUN, READ: every weakly fair execution ends with the result buffer at the result function of the
    argument arrays, and the argument arrays as launched. -/
theorem run : θ_run defs (onTc (τ := τ) (main (F := Ideal))) ⟨m, fun _ => 0, ρ⟩ fun r => ∀ c : Dev nD,
      r.2.mem ((c.tc : Thread nD τ).loc main_v15) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c)),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c))),
      ((h c).1 18).trans (((dats m 0 c).arrAt_in 18 rfl _).trans ((A_eq m c 18).trans (V_main_arg18 m c))),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c))⟩)
    (run_main m ρ)

end Cert.BinMlp.Host

end
-- ==== Proof.lean ====
/-
  The kernel and its reference compute one function of the twenty-five argument arrays.

  Both are a four-layer binarized perceptron with inference-mode batch normalisation on a [32768, 784] input:
  each layer multiplies the signs of its input rows against the rows of a sign matrix, adds a bias and applies
      h ↦ γ · (h − μ) · (σ² + ε)^(−1/2) + β
  with the same ε and the same grouping; the sign is taken between layers (Proof/Spec.lean).

  They differ in four ways, none of which changes a value on the extended reals:
  * the reference clamps each hidden layer to [−1, 1] before the next sign; a clamp keeps the sign of every extended
    real, the infinities included (Spec.lean `sign_clamp`), so the clamp drops out (Proof/RefValue.lean);
  * the kernel takes the sign as  |v| > 0 ? (v < 0 ? −1 : 1) : v,  which is the sign function (Proof/KernelPayload.lean);
  * the kernel's products contract the last axis of both operands, the reference transposes the sign matrix and
    contracts it against axis 0: the same finite sum (KernelPayload.lean, RefValue.lean);
  * the kernel works on 32 blocks of 1024 rows and pads layer 4 from 10 to 128 output columns with zero parameters,
    keeping columns 0 … 9 at the end: the network is row local, so the blocks are the blocks of one array
    (Proof/KernelBlocks.lean), and column q < 10 reads only row q of the padded parameters (Proof/KernelHost.lean).
  No law used needs the inputs to be finite, so the precondition is never opened.

  The three frames are the generated frame certificates (the reference's is its generated run with the result
  dropped); the four sign-bit rewrites of the idealization are the rule's own statement at each shape.
-/
import proofs.«105338_j87522843558243_2_alg».proof.Defs
import proofs.«105338_j87522843558243_2_alg».proof.Proof.Gen.Kernel
import proofs.«105338_j87522843558243_2_alg».proof.Proof.Gen.Kernel.Skeleton
import proofs.«105338_j87522843558243_2_alg».proof.Proof.Gen.Kernel.Launch
import proofs.«105338_j87522843558243_2_alg».proof.Proof.Gen.Kernel.Points
import proofs.«105338_j87522843558243_2_alg».proof.Proof.Gen.Kernel.Frame
import proofs.«105338_j87522843558243_2_alg».proof.Proof.Gen.KernelIdeal
import proofs.«105338_j87522843558243_2_alg».proof.Proof.Gen.KernelIdeal.Skeleton
import proofs.«105338_j87522843558243_2_alg».proof.Proof.Gen.KernelIdeal.Launch
import proofs.«105338_j87522843558243_2_alg».proof.Proof.Gen.KernelIdeal.Points
import proofs.«105338_j87522843558243_2_alg».proof.Proof.Gen.KernelIdeal.Frame
import proofs.«105338_j87522843558243_2_alg».proof.Proof.Gen.ReferenceIdeal
import proofs.«105338_j87522843558243_2_alg».proof.Proof.Gen.ReferenceIdeal.Run
import proofs.«105338_j87522843558243_2_alg».proof.Proof.Gen.ReferenceIdeal.Read
import proofs.«105338_j87522843558243_2_alg».proof.Proof.Gen.Pre_finite_inputs
import proofs.«105338_j87522843558243_2_alg».proof.Proof.RefValue
import proofs.«105338_j87522843558243_2_alg».proof.Proof.KernelHost
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote four reads of a sign bit, one per layer's input: the rule's statement at each shape. -/
theorem preserves : Cert.preserves_Kernel_KernelIdeal :=
  ⟨IdealRules.sign_bit.statement Cert.KernelIdeal.S1024x784 .f32, IdealRules.sign_bit.statement Cert.KernelIdeal.S1024x1024 .f32,
    IdealRules.sign_bit.statement Cert.KernelIdeal.S1024x1024 .f32, IdealRules.sign_bit.statement Cert.KernelIdeal.S1024x1024 .f32⟩

/-- Both idealized programs end with the network of the (agreeing) argument arrays in their result. -/
theorem algebraic : Cert.algebraic_KernelIdeal_ReferenceIdeal := by
  intro m ρ m' ρ' _ hagree
  refine ⟨fun c => Cert.BinMlp.Host.kres m c, Cert.BinMlp.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, Cert.BinMlp.Ref.result_eq]
  obtain ⟨h0, h1, h2, h3, h4, h5, h6, h7, h8, h9, h10, h11, h12, h13, h14, h15, h16, h17, h18, h19, h20, h21, h22, h23, h24⟩ := hagree c
  rw [h0, h1, h2, h3, h4, h5, h6, h7, h8, h9, h10, h11, h12, h13, h14, h15, h16, h17, h18, h19, h20, h21, h22, h23, h24]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
